-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S128x8 : Shape := ⟨2, ![128, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg8 : FVec F S64 .f32) (main_arg9 : FVec F S128x8 .f32) (main_arg10 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x8 .f32 := Host.absf main_arg9
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg10
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : IVec S500000 32) (main_arg4 : IVec S500000 32) (main_arg5 : FVec F S64x64 .f32) (main_arg6 : FVec F S64 .f32) (main_arg7 : FVec F S64x64 .f32) (main_arg8 : FVec F S64 .f32) (main_arg9 : FVec F S128x8 .f32) (main_arg10 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_arg10 main_v13 main_v16
-- ==== Kernel.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S128x8 : Shape := ⟨2, ![128, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S64x8 : Shape := ⟨2, ![64, 8]⟩
abbrev S100000x8 : Shape := ⟨2, ![100000, 8]⟩
abbrev S5000x8 : Shape := ⟨2, ![5000, 8]⟩
abbrev S500000x1 : Shape := ⟨2, ![500000, 1]⟩
abbrev S500000x8 : Shape := ⟨2, ![500000, 8]⟩
abbrev S1x8 : Shape := ⟨2, ![1, 8]⟩

abbrev nBuf : Space → Nat
  | .hbm => 112
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S500000, .i32⟩
  | .hbm, ⟨4, _⟩ => ⟨S500000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x8, .f32⟩
  | .hbm, ⟨10, _⟩ => ⟨S8, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .i1⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S1x64, .f32⟩
  | .hbm, ⟨68, _⟩ => ⟨S100000x1, .f32⟩
  | .hbm, ⟨69, _⟩ => ⟨S100000x1, .f32⟩
  | .hbm, ⟨70, _⟩ => ⟨S100000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S64x8, .f32⟩
  | .hbm, ⟨85, _⟩ => ⟨S64x8, .f32⟩
  | .hbm, ⟨86, _⟩ => ⟨S1x64, .f32⟩
  | .hbm, ⟨87, _⟩ => ⟨S100000x1, .f32⟩
  | .hbm, ⟨88, _⟩ => ⟨S100000x8, .f32⟩
  | .hbm, ⟨89, _⟩ => ⟨S100000x8, .f32⟩
  | .hbm, ⟨90, _⟩ => ⟨S_, .i32⟩
  | .hbm, ⟨91, _⟩ => ⟨S500000, .i32⟩
  | .hbm, ⟨92, _⟩ => ⟨S500000, .i1⟩
  | .hbm, ⟨93, _⟩ => ⟨S_, .i32⟩
  | .hbm, ⟨94, _⟩ => ⟨S500000, .i32⟩
  | .hbm, ⟨95, _⟩ => ⟨S500000, .i32⟩
  | .hbm, ⟨96, _⟩ => ⟨S500000, .i32⟩
  | .hbm, ⟨97, _⟩ => ⟨S500000x1, .i32⟩
  | .hbm, ⟨98, _⟩ => ⟨S500000x8, .f32⟩
  | .hbm, ⟨99, _⟩ => ⟨S_, .i32⟩
  | .hbm, ⟨100, _⟩ => ⟨S500000, .i32⟩
  | .hbm, ⟨101, _⟩ => ⟨S500000, .i1⟩
  | .hbm, ⟨102, _⟩ => ⟨S_, .i32⟩
  | .hbm, ⟨103, _⟩ => ⟨S500000, .i32⟩
  | .hbm, ⟨104, _⟩ => ⟨S500000, .i32⟩
  | .hbm, ⟨105, _⟩ => ⟨S500000, .i32⟩
  | .hbm, ⟨106, _⟩ => ⟨S500000x1, .i32⟩
  | .hbm, ⟨107, _⟩ => ⟨S500000x8, .f32⟩
  | .hbm, ⟨108, _⟩ => ⟨S500000x8, .f32⟩
  | .hbm, ⟨109, _⟩ => ⟨S1x8, .f32⟩
  | .hbm, ⟨110, _⟩ => ⟨S500000x8, .f32⟩
  | .hbm, ⟨111, _⟩ => ⟨S500000x8, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S1x64, .f32⟩
  | .local _ .vmem, ⟨16, _⟩ => ⟨S64x8, .f32⟩
  | .local _ .vmem, ⟨17, _⟩ => ⟨S64x8, .f32⟩
  | .local _ .vmem, ⟨18, _⟩ => ⟨S5000x8, .f32⟩
  | .local _ .vmem, ⟨19, _⟩ => ⟨S5000x8, .f32⟩
  | .local _ .vmem, ⟨20, _⟩ => ⟨S5000x8, .f32⟩
  | .local _ .vmem, ⟨21, _⟩ => ⟨S5000x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_cst_6 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_cst_8 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_9 : Ref sig .tc := ⟨.hbm, 44, rfl⟩
abbrev main_v21 : Ref sig .tc := ⟨.hbm, 45, rfl⟩
abbrev main_v22 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c : Ref sig .tc := ⟨.hbm, 54, rfl⟩
abbrev main_v27 : Ref sig .tc := ⟨.hbm, 55, rfl⟩
abbrev main_v28 : Ref sig .tc := ⟨.hbm, 56, rfl⟩
abbrev main_c_11 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_13 : Ref sig .tc := ⟨.hbm, 71, rfl⟩
abbrev main_v41 : Ref sig .tc := ⟨.hbm, 72, rfl⟩
abbrev main_v42 : Ref sig .tc := ⟨.hbm, 73, rfl⟩
abbrev main_c_14 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_15 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55_0 : Ref sig .tc := ⟨.hbm, 88, rfl⟩
abbrev main_v55_1 : Ref sig .tc := ⟨.hbm, 89, rfl⟩
abbrev main_c_16 : Ref sig .tc := ⟨.hbm, 90, rfl⟩
abbrev main_v56 : Ref sig .tc := ⟨.hbm, 91, rfl⟩
abbrev main_v57 : Ref sig .tc := ⟨.hbm, 92, rfl⟩
abbrev main_c_17 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_18 : Ref sig .tc := ⟨.hbm, 99, rfl⟩
abbrev main_v63 : Ref sig .tc := ⟨.hbm, 100, rfl⟩
abbrev main_v64 : Ref sig .tc := ⟨.hbm, 101, rfl⟩
abbrev main_c_19 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S128x8_S64x8_0_0 : S128x8.Slices ![0, 0] S64x8
  slices_S128x8_S64x8_64_0 : S128x8.Slices ![64, 0] S64x8
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S5000x8_S5000x8_0_0 : ∀ a, (![0, 0] : Fin 2 → Nat) a + S5000x8.size a ≤ S5000x8.size a
  h_S5000x8 : 0 < S5000x8.numel
  bcast_S_S500000 : S_.BroadcastsInDim S500000 (![] : Fin 0 → Fin S500000.rank)
  bcast_S500000_S500000x1_0 : S500000.BroadcastsInDim S500000x1 (![0] : Fin 1 → Fin S500000x1.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x8_S5000x8_1_0_0_1_n_n_wf : DotDims.WF S5000x64 S64x8 S5000x8 [1] [0] [0] [1] [] []
  gather_S100000x8_S500000x1_S500000x8_1_0_n_n_0_1_18_wf : GatherDims.WF S100000x8 S500000x1 S500000x8 [1] [0] [] [0] [] 1 ![1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x8.size a ≤ S64x8.size a
  hwx1_4 : ∀ i : grid1.Coords, EltTy.bits .f32 = 32 ∨ (Rect.block (s := S64x8) S64x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x8.size a ≤ S64x8.size a
  hwx1_5 : ∀ i : grid1.Coords, EltTy.bits .f32 = 32 ∨ (Rect.block (s := S64x8) S64x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x8.size a ≤ S100000x8.size a
  hwx1_6 : ∀ i : grid1.Coords, EltTy.bits .f32 = 32 ∨ (Rect.block (s := S100000x8) S5000x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x8.size a ≤ S100000x8.size a
  hwx1_7 : ∀ i : grid1.Coords, EltTy.bits .f32 = 32 ∨ (Rect.block (s := S100000x8) S5000x8.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def gather_S100000x8_S500000x1_S500000x8_1_0_n_n_0_1_18 : GatherDims S100000x8 S500000x1 S500000x8 where
  offsetDims := [1]
  collapsedSliceDims := [0]
  operandBatchingDims := []
  startIndicesBatchingDims := []
  startIndexMap := [0]
  indexVectorDim := 1
  sliceSizes := ![1, 8]
  wf := gather_S100000x8_S500000x1_S500000x8_1_0_n_n_0_1_18_wf

abbrev win0_0 : Pipeline.Window sig grid0 :=
  Pipeline.Window.ofSpec (Memref.whole main_v36) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S64x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S64x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55_0) S5000x8.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v55_1) S5000x8.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S128x8 : Shape := ⟨2, ![128, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S500000x1 : Shape := ⟨2, ![500000, 1]⟩
abbrev S500000x64 : Shape := ⟨2, ![500000, 64]⟩
abbrev S500000x128 : Shape := ⟨2, ![500000, 128]⟩
abbrev S500000x8 : Shape := ⟨2, ![500000, 8]⟩
abbrev S1x8 : Shape := ⟨2, ![1, 8]⟩

abbrev nBuf : Space → Nat
  | .hbm => 163
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S500000, .i32⟩
  | 4 => ⟨S500000, .i32⟩
  | 5 => ⟨S64x64, .f32⟩
  | 6 => ⟨S64, .f32⟩
  | 7 => ⟨S64x64, .f32⟩
  | 8 => ⟨S64, .f32⟩
  | 9 => ⟨S128x8, .f32⟩
  | 10 => ⟨S8, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .i1⟩
  | 40 => ⟨S_, .f32⟩
  | 41 => ⟨S100000, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .f32⟩
  | 48 => ⟨S_, .f32⟩
  | 49 => ⟨S100000, .f32⟩
  | 50 => ⟨S100000, .f32⟩
  | 51 => ⟨S100000x1, .f32⟩
  | 52 => ⟨S100000x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S100000x1, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S100000, .f32⟩
  | 90 => ⟨S_, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S_, .f32⟩
  | 98 => ⟨S1600000, .f32⟩
  | 99 => ⟨S_, .f32⟩
  | 100 => ⟨S100000, .f32⟩
  | 101 => ⟨S1600000x1, .i32⟩
  | 102 => ⟨S100000, .f32⟩
  | 103 => ⟨S_, .f32⟩
  | 104 => ⟨S100000, .f32⟩
  | 105 => ⟨S100000, .i1⟩
  | 106 => ⟨S_, .f32⟩
  | 107 => ⟨S100000, .f32⟩
  | 108 => ⟨S100000, .f32⟩
  | 109 => ⟨S100000, .f32⟩
  | 110 => ⟨S_, .f32⟩
  | 111 => ⟨S100000, .f32⟩
  | 112 => ⟨S100000, .f32⟩
  | 113 => ⟨S_, .f32⟩
  | 114 => ⟨S_, .f32⟩
  | 115 => ⟨S100000, .f32⟩
  | 116 => ⟨S100000, .f32⟩
  | 117 => ⟨S100000x1, .f32⟩
  | 118 => ⟨S100000x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x64, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S100000x1, .f32⟩
  | 6 => ⟨S100000x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x64, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x64, .f32⟩
  | 30 => ⟨S500000x128, .f32⟩
  | 31 => ⟨S500000x8, .f32⟩
  | 32 => ⟨S1x8, .f32⟩
  | 33 => ⟨S500000x8, .f32⟩
  | 34 => ⟨S500000x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_cst_6 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_cst_8 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_9 : Ref sig .tc := ⟨.hbm, 44, rfl⟩
abbrev main_v21 : Ref sig .tc := ⟨.hbm, 45, rfl⟩
abbrev main_v22 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c : Ref sig .tc := ⟨.hbm, 54, rfl⟩
abbrev main_v27 : Ref sig .tc := ⟨.hbm, 55, rfl⟩
abbrev main_v28 : Ref sig .tc := ⟨.hbm, 56, rfl⟩
abbrev main_c_11 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call2_cst : Ref sig .tc := ⟨.hbm, 74, rfl⟩
abbrev main_call2_v0 : Ref sig .tc := ⟨.hbm, 75, rfl⟩
abbrev main_v44 : Ref sig .tc := ⟨.hbm, 76, rfl⟩
abbrev main_cst_13 : Ref sig .tc := ⟨.hbm, 77, rfl⟩
abbrev main_v45 : Ref sig .tc := ⟨.hbm, 78, rfl⟩
abbrev main_cst_14 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_15 : Ref sig .tc := ⟨.hbm, 83, rfl⟩
abbrev main_v49 : Ref sig .tc := ⟨.hbm, 84, rfl⟩
abbrev main_v50 : Ref sig .tc := ⟨.hbm, 85, rfl⟩
abbrev main_cst_16 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_17 : Ref sig .tc := ⟨.hbm, 90, rfl⟩
abbrev main_v54 : Ref sig .tc := ⟨.hbm, 91, rfl⟩
abbrev main_v55 : Ref sig .tc := ⟨.hbm, 92, rfl⟩
abbrev main_cst_18 : Ref sig .tc := ⟨.hbm, 93, rfl⟩
abbrev main_call3_v0 : Ref sig .tc := ⟨.hbm, 94, rfl⟩
abbrev main_call3_v1 : Ref sig .tc := ⟨.hbm, 95, rfl⟩
abbrev main_v56 : Ref sig .tc := ⟨.hbm, 96, rfl⟩
abbrev main_cst_19 : Ref sig .tc := ⟨.hbm, 97, rfl⟩
abbrev main_v57 : Ref sig .tc := ⟨.hbm, 98, rfl⟩
abbrev main_cst_20 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_21 : Ref sig .tc := ⟨.hbm, 103, rfl⟩
abbrev main_v61 : Ref sig .tc := ⟨.hbm, 104, rfl⟩
abbrev main_v62 : Ref sig .tc := ⟨.hbm, 105, rfl⟩
abbrev main_cst_22 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_23 : Ref sig .tc := ⟨.hbm, 110, rfl⟩
abbrev main_v66 : Ref sig .tc := ⟨.hbm, 111, rfl⟩
abbrev main_v67 : Ref sig .tc := ⟨.hbm, 112, rfl⟩
abbrev main_cst_24 : Ref sig .tc := ⟨.hbm, 113, rfl⟩
abbrev main_call4_v0 : Ref sig .tc := ⟨.hbm, 114, rfl⟩
abbrev main_call4_v1 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_25 : Ref sig .tc := ⟨.hbm, 120, rfl⟩
abbrev main_v72 : Ref sig .tc := ⟨.hbm, 121, rfl⟩
abbrev main_v73 : Ref sig .tc := ⟨.hbm, 122, rfl⟩
abbrev main_c_26 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_27 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_28 : Ref sig .tc := ⟨.hbm, 140, rfl⟩
abbrev main_v89 : Ref sig .tc := ⟨.hbm, 141, rfl⟩
abbrev main_v90 : Ref sig .tc := ⟨.hbm, 142, rfl⟩
abbrev main_c_29 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_30 : Ref sig .tc := ⟨.hbm, 149, rfl⟩
abbrev main_v96 : Ref sig .tc := ⟨.hbm, 150, rfl⟩
abbrev main_v97 : Ref sig .tc := ⟨.hbm, 151, rfl⟩
abbrev main_c_31 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x128_S128x8_S500000x8_1_0_0_1_n_n_wf : DotDims.WF S500000x128 S128x8 S500000x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x128_S128x8_S500000x8_1_0_0_1_n_n : DotDims S500000x128 S128x8 S500000x8 where
  lhsContracting := [1]
  rhsContracting := [0]
  lhsNonContracting := [0]
  rhsNonContracting := [1]
  lhsBatch := []
  rhsBatch := []
  wf := dot_S500000x128_S128x8_S500000x8_1_0_0_1_n_n_wf

class Facts : Prop extends Facts₀ where

variable [Facts]
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.LibConcatPair.lean ====
/-
  A concatenation of two arrays as a function of the two arrays alone.

  `concatenate t a xs h` takes its operands as a list of (shape, array) pairs, and the evidence `h` that the shapes fit is
  stated about that list. So the type of `h` mentions the arrays, and a rewrite of an operand inside the list has to carry
  `h` along: rewriting under a concatenation stops there. For two operands `pair` is the same array with the evidence
  stated about the two shapes only; `concatenate_pair` turns the one into the other (the two are the same term up to
  unfolding), after which both operands are ordinary arguments and can be rewritten.
-/
import Idealize.ShloMosaic.PureOps.ShapeOps

noncomputable section

namespace Cert.Lib.ConcatPair

open Idealize.ShloMosaic

variable {α : Type}

/-- Two arrays joined along axis `a` of the result shape `t`. -/
def pair (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A two-operand concatenation is `pair` of its operands. -/
theorem concatenate_pair (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pair t a s₁ s₂ x₁ x₂ h := rfl

end Cert.Lib.ConcatPair

end
-- ==== Proof.LibReadLine.lean ====
/-
  One tactic for reading a buffer's contents after a line of host operations.

  The contents after a line are a fold of the operations' results over the contents before it. Reading the fold at one
  buffer is a computation: each operation's result at its own result buffer is its function of its operands' contents, and
  at any other buffer what was there (the references differ: decided). `read_line` does this in one simplifier pass — so
  that a value with several consumers is visited once — with two additions:
    * a two-operand concatenation is opened into a function of its two operands (`Cert.Lib.ConcatPair`), so that the pass
      goes on inside them;
    * a value carried to an outlined function's buffer and back is left as it was (`Cert.Lib.Outlined.ofBuf_toBuf`).
  It leaves an equation between a pure term over the contents at the line's inputs and the goal's right-hand side (closed
  by `rfl` against the same term, or by the lemma that names the term), or closes the goal when the buffer is not written.
-/
import Idealize.ShloMosaic.Lib.StableHlo.Run
import proofs.«136758_j49890340110359_2_alg».proof.Proof.LibOutlined
import proofs.«136758_j49890340110359_2_alg».proof.Proof.LibConcatPair

namespace Cert.Lib.ReadLine

/-- Reads `after ops V (Proc.devRef .tc r)` for a literal list `ops` (possibly several nested `after`s): see the
    module's header. -/
macro "read_line" : tactic =>
  `(tactic| simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne',
      Cert.Lib.ConcatPair.concatenate_pair, Cert.Lib.Outlined.ofBuf_toBuf])

end Cert.Lib.ReadLine
-- ==== Proof.KernelRun.lean ====
/-
  The idealized kernel's run with its result named.

  @main is nine segments: five stretches of host operations, the first dense stage's grid, one stretch, the second dense
  stage's grid, one last stretch. The buffer contents at each boundary are a fold from the launch memory: a stretch applies
  its operations' pure functions, a grid leaves its output arrays at what its write-backs put there and every other
  buffer as it found it. Every weakly fair execution terminates, faults nowhere, and ends with every unscoped buffer at
  the last boundary's contents; read at the result buffer that is the equation below, and read at an argument buffer it
  walks back to the launch memory (no operation and no grid writes an argument).
-/
import proofs.«136758_j49890340110359_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunValue

end
-- ==== Proof.GlueArgs.lean ====
/-
  Shared vocabulary for reading the kernel's host operations back: the argument arrays as launched, at their literal
  types, and the aggregation step (rows gathered along the source list, added up by destination) as one function of the
  array it aggregates and the two index lists, spelt with the reference's own stages.
-/
import proofs.«136758_j49890340110359_2_alg».proof.Proof.Gen.KernelIdeal.Frame
import proofs.«136758_j49890340110359_2_alg».proof.Proof.RefRead
import Idealize.ShloMosaic.PureOps.Ideal

noncomputable section

namespace Cert.Gcn.Glue

open Cert.KernelIdeal Cert.KernelIdeal.Gen
open Idealize.ShloMosaic Idealize.ShloMosaic.TcCoe Idealize.SL.Sem
open Cert.ReferenceIdeal.ReadP (val_main_v77 val_main_v79 val_main_v80)

variable (m : (ℓ : Loc nD τ sig) → Buf (Elt Ideal) ℓ) (c : Dev nD)

/-- The argument arrays as launched, at their literal types. -/
abbrev a0 : (⟨S100000x64, .f32⟩ : BufTy).Contents (Elt Ideal) := m ((c : Thread nD τ).loc main_arg0)
abbrev a1 : (⟨S1600000, .i32⟩ : BufTy).Contents (Elt Ideal) := m ((c : Thread nD τ).loc main_arg1)
abbrev a2 : (⟨S1600000, .i32⟩ : BufTy).Contents (Elt Ideal) := m ((c : Thread nD τ).loc main_arg2)
abbrev a3 : (⟨S500000, .i32⟩ : BufTy).Contents (Elt Ideal) := m ((c : Thread nD τ).loc main_arg3)
abbrev a4 : (⟨S500000, .i32⟩ : BufTy).Contents (Elt Ideal) := m ((c : Thread nD τ).loc main_arg4)
abbrev a5 : (⟨S64x64, .f32⟩ : BufTy).Contents (Elt Ideal) := m ((c : Thread nD τ).loc main_arg5)
abbrev a6 : (⟨S64, .f32⟩ : BufTy).Contents (Elt Ideal) := m ((c : Thread nD τ).loc main_arg6)
abbrev a7 : (⟨S64x64, .f32⟩ : BufTy).Contents (Elt Ideal) := m ((c : Thread nD τ).loc main_arg7)
abbrev a8 : (⟨S64, .f32⟩ : BufTy).Contents (Elt Ideal) := m ((c : Thread nD τ).loc main_arg8)
abbrev a9 : (⟨S128x8, .f32⟩ : BufTy).Contents (Elt Ideal) := m ((c : Thread nD τ).loc main_arg9)
abbrev a10 : (⟨S8, .f32⟩ : BufTy).Contents (Elt Ideal) := m ((c : Thread nD τ).loc main_arg10)

/-- Rows of `h` gathered along the source list `s` and added up by destination `d`. -/
def aggregate (h : (⟨Cert.ReferenceIdeal.S100000x64, .f32⟩ : BufTy).Contents (Elt Ideal))
    (s d : (⟨Cert.ReferenceIdeal.S1600000, .i32⟩ : BufTy).Contents (Elt Ideal)) :
    (⟨Cert.ReferenceIdeal.S100000x64, .f32⟩ : BufTy).Contents (Elt Ideal) :=
  Host.scatterAdd (F := Ideal) (φ := .f32) Cert.ReferenceIdeal.scatter_S100000x64_S1600000x1_S1600000x64_1_0_0_1 (val_main_v79 (F := Ideal))
    (val_main_v80 (F := Ideal) d)
    (Host.gather Cert.ReferenceIdeal.gather_S100000x64_S1600000x1_S1600000x64_1_0_n_n_0_1_164 h (val_main_v77 (F := Ideal) s))

end Cert.Gcn.Glue

end
-- ==== Proof.GlueWalk.lean ====
/-
  Buffers that a grid does not own, read across it.

  A grid leaves every buffer that is not one of its arrays as it found it, and a host operation changes only the buffer
  it writes. So an argument array read at any boundary of @main is the array as launched, and the in-degree factor,
  computed before the first grid, is still there after it.
-/
import proofs.«136758_j49890340110359_2_alg».proof.Proof.GlueArgs
import proofs.«136758_j49890340110359_2_alg».proof.Proof.LibReadLine

set_option maxRecDepth 16384

noncomputable section

namespace Cert.Gcn.Glue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## After the first grid -/

/-- A buffer the first grid does not own and the last stretch before it does not write holds what it held four
    stretches in. -/
theorem W6_of_W4 (b : Ref sig .tc) (hb : ∀ w, Pipeline.arrRef spec0 w ≠ b)
    (h : StableHlo.after hostOps0_4 (W4 m ρ c) (Proc.devRef .tc b) = W4 m ρ c (Proc.devRef .tc b)) :
    W6 m ρ c (Proc.devRef .tc b) = W4 m ρ c (Proc.devRef .tc b) :=
  (W6_of_ne m ρ c b hb).trans h

set_option maxHeartbeats 400000 in
theorem W6_arg1 : W6 m ρ c (Proc.devRef .tc main_arg1) = a1 m c := by
  refine (W6_of_ne m ρ c main_arg1 (by decide)).trans ?_
  show StableHlo.after hostOps0_4 (StableHlo.after hostOps0_3 (StableHlo.after hostOps0_2 (StableHlo.after hostOps0_1
    (StableHlo.after hostOps0 (W0 m ρ c))))) (Proc.devRef .tc main_arg1) = _
  read_line

set_option maxHeartbeats 400000 in
theorem W6_arg2 : W6 m ρ c (Proc.devRef .tc main_arg2) = a2 m c := by
  refine (W6_of_ne m ρ c main_arg2 (by decide)).trans ?_
  show StableHlo.after hostOps0_4 (StableHlo.after hostOps0_3 (StableHlo.after hostOps0_2 (StableHlo.after hostOps0_1
    (StableHlo.after hostOps0 (W0 m ρ c))))) (Proc.devRef .tc main_arg2) = _
  read_line

set_option maxHeartbeats 400000 in
theorem W6_arg7 : W6 m ρ c (Proc.devRef .tc main_arg7) = a7 m c := by
  refine (W6_of_ne m ρ c main_arg7 (by decide)).trans ?_
  show StableHlo.after hostOps0_4 (StableHlo.after hostOps0_3 (StableHlo.after hostOps0_2 (StableHlo.after hostOps0_1
    (StableHlo.after hostOps0 (W0 m ρ c))))) (Proc.devRef .tc main_arg7) = _
  read_line

set_option maxHeartbeats 400000 in
theorem W6_arg8 : W6 m ρ c (Proc.devRef .tc main_arg8) = a8 m c := by
  refine (W6_of_ne m ρ c main_arg8 (by decide)).trans ?_
  show StableHlo.after hostOps0_4 (StableHlo.after hostOps0_3 (StableHlo.after hostOps0_2 (StableHlo.after hostOps0_1
    (StableHlo.after hostOps0 (W0 m ρ c))))) (Proc.devRef .tc main_arg8) = _
  read_line

set_option maxHeartbeats 400000 in
theorem W6_arg9 : W6 m ρ c (Proc.devRef .tc main_arg9) = a9 m c := by
  refine (W6_of_ne m ρ c main_arg9 (by decide)).trans ?_
  show StableHlo.after hostOps0_4 (StableHlo.after hostOps0_3 (StableHlo.after hostOps0_2 (StableHlo.after hostOps0_1
    (StableHlo.after hostOps0 (W0 m ρ c))))) (Proc.devRef .tc main_arg9) = _
  read_line

set_option maxHeartbeats 400000 in
/-- The in-degree factor survives the last stretch before the first grid and the grid itself. -/
theorem W6_cin_of_W4 : W6 m ρ c (Proc.devRef .tc main_v23) = W4 m ρ c (Proc.devRef .tc main_v23) := by
  refine (W6_of_ne m ρ c main_v23 (by decide)).trans ?_
  show StableHlo.after hostOps0_4 (W4 m ρ c) (Proc.devRef .tc main_v23) = _
  generalize W4 m ρ c = W
  read_line

/-! ## After the second grid -/

set_option maxHeartbeats 400000 in
theorem W8_arg3 : W8 m ρ c (Proc.devRef .tc main_arg3) = a3 m c := by
  have h : W9 m ρ c (Proc.devRef .tc main_arg3) = W8 m ρ c (Proc.devRef .tc main_arg3) := by
    show StableHlo.after hostOps2 (W8 m ρ c) (Proc.devRef .tc main_arg3) = _
    generalize W8 m ρ c = W
    read_line
  exact h.symm.trans (W9_main_arg3 m ρ c)

set_option maxHeartbeats 400000 in
theorem W8_arg4 : W8 m ρ c (Proc.devRef .tc main_arg4) = a4 m c := by
  have h : W9 m ρ c (Proc.devRef .tc main_arg4) = W8 m ρ c (Proc.devRef .tc main_arg4) := by
    show StableHlo.after hostOps2 (W8 m ρ c) (Proc.devRef .tc main_arg4) = _
    generalize W8 m ρ c = W
    read_line
  exact h.symm.trans (W9_main_arg4 m ρ c)

set_option maxHeartbeats 400000 in
theorem W8_arg10 : W8 m ρ c (Proc.devRef .tc main_arg10) = a10 m c := by
  have h : W9 m ρ c (Proc.devRef .tc main_arg10) = W8 m ρ c (Proc.devRef .tc main_arg10) := by
    show StableHlo.after hostOps2 (W8 m ρ c) (Proc.devRef .tc main_arg10) = _
    generalize W8 m ρ c = W
    read_line
  exact h.symm.trans (W9_main_arg10 m ρ c)

end Cert.Gcn.Glue

end
-- ==== Proof.GlueFactors.lean ====
/-
  The two degree factors as the kernel's host operations leave them, read back in the reference's vocabulary.

  Before its first region the kernel's host side counts, for each node, the edges that name it in the first index list
  (a scatter-add of ones), and keeps the inverse square root of the count where the count is positive and zero elsewhere;
  then it does the same for the second index list.  The reference computes the same two factors by the same operations
  (and each of them a second time, before its second layer).  Each line of operations is read back from ARBITRARY contents
  before it, so that no step ever has to look inside a scatter-add over the 1.6 million edges: what a line computes is a
  term over the contents at its inputs, equal to the reference's stage by unfolding names only.  The lines are then
  composed at the boundaries between them, down to the arrays as launched.
-/
import proofs.«136758_j49890340110359_2_alg».proof.Proof.GlueArgs
import proofs.«136758_j49890340110359_2_alg».proof.Proof.LibReadLine

noncomputable section

namespace Cert.Gcn.Glue

open Cert.KernelIdeal Cert.KernelIdeal.Gen
open Idealize.ShloMosaic Idealize.ShloMosaic.TcCoe Idealize.SL.Sem
open Cert.ReferenceIdeal.ReadP
open Cert.Lib.ReadLine

/-! ## One line at a time, from arbitrary contents -/

section Lines

variable (W : Valuation τ sig (Elt Ideal))

set_option maxHeartbeats 200000 in
/-- The first line: from the first index list, the positivity mask of the degree count, the inverse square root of the
    count clamped below at one, and the zero the mask selects against. -/
theorem stretch0 (x1 : (⟨S1600000, .i32⟩ : BufTy).Contents (Elt Ideal)) (h1 : W (Proc.devRef .tc main_arg1) = x1) :
    StableHlo.after hostOps0 W (Proc.devRef .tc main_v5) = val_main_v5 (F := Ideal) x1
    ∧ StableHlo.after hostOps0 W (Proc.devRef .tc main_v10) = val_main_v10 (F := Ideal) x1
    ∧ StableHlo.after hostOps0 W (Proc.devRef .tc main_cst_4) = val_main_cst_4 (F := Ideal) := by
  refine ⟨?_, ?_, ?_⟩
  · read_line
    rw [h1]
    rfl
  · read_line
    rw [h1]
    rfl
  · read_line
    rfl

set_option maxHeartbeats 200000 in
/-- The second line selects, entry by entry, the second input where the mask holds and the broadcast third input elsewhere:
    stated for arbitrary inputs. -/
theorem where0_any (y5 : (⟨S100000, .i1⟩ : BufTy).Contents (Elt Ideal)) (y10 : (⟨S100000, .f32⟩ : BufTy).Contents (Elt Ideal))
    (yc : (⟨S_, .f32⟩ : BufTy).Contents (Elt Ideal))
    (h5 : W (Proc.devRef .tc main_v5) = y5) (h10 : W (Proc.devRef .tc main_v10) = y10)
    (hc : W (Proc.devRef .tc main_cst_4) = yc) :
    StableHlo.after hostOps0_1 W (Proc.devRef .tc main_v11)
      = (select y5 y10 (broadcastInDim S100000 ![] bcast_S_S100000 (id yc)) : (⟨S100000, .f32⟩ : BufTy).Contents (Elt Ideal)) := by
  read_line
  rw [h5, h10, hc]
  rfl

set_option maxHeartbeats 200000 in
/-- At the first line's results that is the reference's first factor. -/
theorem where0 (x1 : (⟨S1600000, .i32⟩ : BufTy).Contents (Elt Ideal))
    (h5 : W (Proc.devRef .tc main_v5) = val_main_v5 (F := Ideal) x1)
    (h10 : W (Proc.devRef .tc main_v10) = val_main_v10 (F := Ideal) x1)
    (hc : W (Proc.devRef .tc main_cst_4) = val_main_cst_4 (F := Ideal)) :
    StableHlo.after hostOps0_1 W (Proc.devRef .tc main_v11) = val_main_v11 (F := Ideal) x1 := by
  refine (where0_any W _ _ _ h5 h10 hc).trans ?_
  unfold val_main_v11 val_main_call0_v1 val_main_call0_v0
  rfl

set_option maxHeartbeats 200000 in
/-- The third line: the same computation from the second index list. -/
theorem stretch2 (x2 : (⟨S1600000, .i32⟩ : BufTy).Contents (Elt Ideal)) (h2 : W (Proc.devRef .tc main_arg2) = x2) :
    StableHlo.after hostOps0_2 W (Proc.devRef .tc main_v17) = val_main_v17 (F := Ideal) x2
    ∧ StableHlo.after hostOps0_2 W (Proc.devRef .tc main_v22) = val_main_v22 (F := Ideal) x2
    ∧ StableHlo.after hostOps0_2 W (Proc.devRef .tc main_cst_10) = val_main_cst_10 (F := Ideal) := by
  refine ⟨?_, ?_, ?_⟩
  · read_line
    rw [h2]
    rfl
  · read_line
    rw [h2]
    rfl
  · read_line
    rfl

set_option maxHeartbeats 200000 in
/-- The fourth line is the second's selection on the third line's results: stated for arbitrary inputs. -/
theorem where1_any (y17 : (⟨S100000, .i1⟩ : BufTy).Contents (Elt Ideal)) (y22 : (⟨S100000, .f32⟩ : BufTy).Contents (Elt Ideal))
    (yc : (⟨S_, .f32⟩ : BufTy).Contents (Elt Ideal))
    (h17 : W (Proc.devRef .tc main_v17) = y17) (h22 : W (Proc.devRef .tc main_v22) = y22)
    (hc : W (Proc.devRef .tc main_cst_10) = yc) :
    StableHlo.after hostOps0_3 W (Proc.devRef .tc main_v23)
      = (select y17 y22 (broadcastInDim S100000 ![] bcast_S_S100000 (id yc)) : (⟨S100000, .f32⟩ : BufTy).Contents (Elt Ideal)) := by
  read_line
  rw [h17, h22, hc]
  rfl

set_option maxHeartbeats 200000 in
/-- At the third line's results that is the reference's second factor. -/
theorem where1 (x2 : (⟨S1600000, .i32⟩ : BufTy).Contents (Elt Ideal))
    (h17 : W (Proc.devRef .tc main_v17) = val_main_v17 (F := Ideal) x2)
    (h22 : W (Proc.devRef .tc main_v22) = val_main_v22 (F := Ideal) x2)
    (hc : W (Proc.devRef .tc main_cst_10) = val_main_cst_10 (F := Ideal)) :
    StableHlo.after hostOps0_3 W (Proc.devRef .tc main_v23) = val_main_v23 (F := Ideal) x2 := by
  refine (where1_any W _ _ _ h17 h22 hc).trans ?_
  unfold val_main_v23 val_main_call1_v1 val_main_call1_v0
  rfl

/-! ### What a line does not write it leaves as it was -/

set_option maxHeartbeats 200000 in
/-- The first two lines leave the second index list alone … -/
theorem keep0_arg2 : StableHlo.after hostOps0 W (Proc.devRef .tc main_arg2) = W (Proc.devRef .tc main_arg2) := by read_line
set_option maxHeartbeats 200000 in
theorem keep1_arg2 : StableHlo.after hostOps0_1 W (Proc.devRef .tc main_arg2) = W (Proc.devRef .tc main_arg2) := by read_line
set_option maxHeartbeats 200000 in
/-- … and the last two the first factor. -/
theorem keep2_v11 : StableHlo.after hostOps0_2 W (Proc.devRef .tc main_v11) = W (Proc.devRef .tc main_v11) := by read_line
set_option maxHeartbeats 200000 in
theorem keep3_v11 : StableHlo.after hostOps0_3 W (Proc.devRef .tc main_v11) = W (Proc.devRef .tc main_v11) := by read_line

set_option maxHeartbeats 200000 in
/-- None of the four lines writes an argument array. -/
theorem keep_args :
    StableHlo.after hostOps0_3 (StableHlo.after hostOps0_2 (StableHlo.after hostOps0_1 (StableHlo.after hostOps0 W))) (Proc.devRef .tc main_arg0)
      = W (Proc.devRef .tc main_arg0)
    ∧ StableHlo.after hostOps0_3 (StableHlo.after hostOps0_2 (StableHlo.after hostOps0_1 (StableHlo.after hostOps0 W))) (Proc.devRef .tc main_arg1)
      = W (Proc.devRef .tc main_arg1)
    ∧ StableHlo.after hostOps0_3 (StableHlo.after hostOps0_2 (StableHlo.after hostOps0_1 (StableHlo.after hostOps0 W))) (Proc.devRef .tc main_arg2)
      = W (Proc.devRef .tc main_arg2)
    ∧ StableHlo.after hostOps0_3 (StableHlo.after hostOps0_2 (StableHlo.after hostOps0_1 (StableHlo.after hostOps0 W))) (Proc.devRef .tc main_arg5)
      = W (Proc.devRef .tc main_arg5)
    ∧ StableHlo.after hostOps0_3 (StableHlo.after hostOps0_2 (StableHlo.after hostOps0_1 (StableHlo.after hostOps0 W))) (Proc.devRef .tc main_arg6)
      = W (Proc.devRef .tc main_arg6) := by
  refine ⟨?_, ?_, ?_, ?_, ?_⟩ <;> read_line

end Lines

/-! ## The lines composed, from the launch to the end of the fourth -/

section Composed

variable (m : (ℓ : Loc nD τ sig) → Buf (Elt Ideal) ℓ) (ρ : Dev nD → PrngReg) (c : Dev nD)

set_option maxHeartbeats 200000 in
/-- After the four lines the first factor's buffer holds the reference's first factor of the first index list as launched. -/
theorem W4_cout : W4 m ρ c (Proc.devRef .tc main_v11) = val_main_v11 (F := Ideal) (a1 m c) := by
  show StableHlo.after hostOps0_3 (W3 m ρ c) (Proc.devRef .tc main_v11) = _
  rw [keep3_v11 (W3 m ρ c)]
  show StableHlo.after hostOps0_2 (W2 m ρ c) (Proc.devRef .tc main_v11) = _
  rw [keep2_v11 (W2 m ρ c)]
  obtain ⟨h5, h10, hc⟩ := stretch0 (W0 m ρ c) (a1 m c) rfl
  exact where0 (W1 m ρ c) (a1 m c) h5 h10 hc

set_option maxHeartbeats 200000 in
/-- And the second factor's buffer the reference's second factor of the second index list as launched. -/
theorem W4_cin : W4 m ρ c (Proc.devRef .tc main_v23) = val_main_v23 (F := Ideal) (a2 m c) := by
  have h2 : W2 m ρ c (Proc.devRef .tc main_arg2) = a2 m c := by
    show StableHlo.after hostOps0_1 (W1 m ρ c) (Proc.devRef .tc main_arg2) = _
    rw [keep1_arg2 (W1 m ρ c)]
    show StableHlo.after hostOps0 (W0 m ρ c) (Proc.devRef .tc main_arg2) = _
    rw [keep0_arg2 (W0 m ρ c)]
  obtain ⟨h17, h22, hc⟩ := stretch2 (W2 m ρ c) (a2 m c) h2
  exact where1 (W3 m ρ c) (a2 m c) h17 h22 hc

/-! The argument arrays after the four lines are the arrays as launched. -/

set_option maxHeartbeats 200000 in
theorem W4_arg0 : W4 m ρ c (Proc.devRef .tc main_arg0) = a0 m c := (keep_args (W0 m ρ c)).1
set_option maxHeartbeats 200000 in
theorem W4_arg1 : W4 m ρ c (Proc.devRef .tc main_arg1) = a1 m c := (keep_args (W0 m ρ c)).2.1
set_option maxHeartbeats 200000 in
theorem W4_arg2 : W4 m ρ c (Proc.devRef .tc main_arg2) = a2 m c := (keep_args (W0 m ρ c)).2.2.1
set_option maxHeartbeats 200000 in
theorem W4_arg5 : W4 m ρ c (Proc.devRef .tc main_arg5) = a5 m c := (keep_args (W0 m ρ c)).2.2.2.1
set_option maxHeartbeats 200000 in
theorem W4_arg6 : W4 m ρ c (Proc.devRef .tc main_arg6) = a6 m c := (keep_args (W0 m ρ c)).2.2.2.2

end Composed

/-! ## The reference computes each factor a second time, by the same operations -/

section Again

variable (x : (⟨S1600000, .i32⟩ : BufTy).Contents (Elt Ideal))

/-! The first factor's second computation, stage by stage (`%45 … %56` against `%0 … %11`). -/

theorem v45_again : val_main_v45 (F := Ideal) = val_main_v0 (F := Ideal) := by
  unfold val_main_v45 val_main_v0 val_main_cst_13 val_main_cst
  rfl
theorem v46_again : val_main_v46 (F := Ideal) = val_main_v1 (F := Ideal) := by
  unfold val_main_v46 val_main_v1 val_main_cst_14 val_main_cst_0
  rfl
theorem v47_again : val_main_v47 (F := Ideal) x = val_main_v2 (F := Ideal) x := by
  unfold val_main_v47 val_main_v2
  rfl
theorem v48_again : val_main_v48 (F := Ideal) x = val_main_v3 (F := Ideal) x := by
  unfold val_main_v48 val_main_v3
  rw [v45_again, v46_again, v47_again]
theorem v49_again : val_main_v49 (F := Ideal) = val_main_v4 (F := Ideal) := by
  unfold val_main_v49 val_main_v4 val_main_cst_15 val_main_cst_1
  rfl
theorem v50_again : val_main_v50 (F := Ideal) x = val_main_v5 (F := Ideal) x := by
  unfold val_main_v50 val_main_v5
  rw [v48_again, v49_again]
theorem v51_again : val_main_v51 (F := Ideal) = val_main_v6 (F := Ideal) := by
  unfold val_main_v51 val_main_v6 val_main_cst_16 val_main_cst_2
  rfl
theorem v52_again : val_main_v52 (F := Ideal) x = val_main_v7 (F := Ideal) x := by
  unfold val_main_v52 val_main_v7
  rw [v48_again, v51_again]
theorem v53_again : val_main_v53 (F := Ideal) x = val_main_v8 (F := Ideal) x := by
  unfold val_main_v53 val_main_v8
  rw [v52_again]
theorem v54_again : val_main_v54 (F := Ideal) = val_main_v9 (F := Ideal) := by
  unfold val_main_v54 val_main_v9 val_main_cst_17 val_main_cst_3
  rfl
theorem v55_again : val_main_v55 (F := Ideal) x = val_main_v10 (F := Ideal) x := by
  unfold val_main_v55 val_main_v10
  rw [v53_again, v54_again]
theorem call3_again : val_main_call3_v1 (F := Ideal) = val_main_call0_v1 (F := Ideal) := by
  unfold val_main_call3_v1 val_main_call0_v1 val_main_call3_v0 val_main_call0_v0 val_main_cst_18 val_main_cst_4
  rfl

/-- The reference's second computation of the first factor is its first. -/
theorem cout_again : val_main_v56 (F := Ideal) x = val_main_v11 (F := Ideal) x := by
  unfold val_main_v56 val_main_v11
  rw [v50_again, v55_again, call3_again]

/-! The second factor's second computation, stage by stage (`%57 … %68` against `%12 … %23`). -/

theorem v57_again : val_main_v57 (F := Ideal) = val_main_v12 (F := Ideal) := by
  unfold val_main_v57 val_main_v12 val_main_cst_19 val_main_cst_5
  rfl
theorem v58_again : val_main_v58 (F := Ideal) = val_main_v13 (F := Ideal) := by
  unfold val_main_v58 val_main_v13 val_main_cst_20 val_main_cst_6
  rfl
theorem v59_again : val_main_v59 (F := Ideal) x = val_main_v14 (F := Ideal) x := by
  unfold val_main_v59 val_main_v14
  rfl
theorem v60_again : val_main_v60 (F := Ideal) x = val_main_v15 (F := Ideal) x := by
  unfold val_main_v60 val_main_v15
  rw [v57_again, v58_again, v59_again]
theorem v61_again : val_main_v61 (F := Ideal) = val_main_v16 (F := Ideal) := by
  unfold val_main_v61 val_main_v16 val_main_cst_21 val_main_cst_7
  rfl
theorem v62_again : val_main_v62 (F := Ideal) x = val_main_v17 (F := Ideal) x := by
  unfold val_main_v62 val_main_v17
  rw [v60_again, v61_again]
theorem v63_again : val_main_v63 (F := Ideal) = val_main_v18 (F := Ideal) := by
  unfold val_main_v63 val_main_v18 val_main_cst_22 val_main_cst_8
  rfl
theorem v64_again : val_main_v64 (F := Ideal) x = val_main_v19 (F := Ideal) x := by
  unfold val_main_v64 val_main_v19
  rw [v60_again, v63_again]
theorem v65_again : val_main_v65 (F := Ideal) x = val_main_v20 (F := Ideal) x := by
  unfold val_main_v65 val_main_v20
  rw [v64_again]
theorem v66_again : val_main_v66 (F := Ideal) = val_main_v21 (F := Ideal) := by
  unfold val_main_v66 val_main_v21 val_main_cst_23 val_main_cst_9
  rfl
theorem v67_again : val_main_v67 (F := Ideal) x = val_main_v22 (F := Ideal) x := by
  unfold val_main_v67 val_main_v22
  rw [v65_again, v66_again]
theorem call4_again : val_main_call4_v1 (F := Ideal) = val_main_call1_v1 (F := Ideal) := by
  unfold val_main_call4_v1 val_main_call1_v1 val_main_call4_v0 val_main_call1_v0 val_main_cst_24 val_main_cst_10
  rfl

/-- The reference's second computation of the second factor is its first. -/
theorem cin_again : val_main_v68 (F := Ideal) x = val_main_v23 (F := Ideal) x := by
  unfold val_main_v68 val_main_v23
  rw [v62_again, v67_again, call4_again]

end Again

end Cert.Gcn.Glue

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.GlueStage0.lean ====
/-
  The last stretch of host operations before the first grid, read back.

  The stretch spreads the out-degree factor over the columns and multiplies it into the node features, wraps the source list
  (a negative entry counts from the end) and recasts it as a column, gathers the scaled rows along the source list, and adds
  them up by destination into a zero array: the aggregated node array.  It then recasts the first layer's bias as a row and
  the in-degree and out-degree factors as columns.  Operation for operation these are the reference's own stages, so the
  aggregated array is the reference's stage of the same arguments; a recast vector read at `(r, 0)` (or `(0, q)`) is the
  vector at `r` (at `q`); and a buffer the stretch does not write keeps its contents.
-/
import proofs.«136758_j49890340110359_2_alg».proof.Proof.GlueArgs
import proofs.«136758_j49890340110359_2_alg».proof.Proof.LibReadLine
import proofs.«136758_j49890340110359_2_alg».proof.Proof.LibColumns
import Idealize.ShloMosaic.Lib.ValueLayout

noncomputable section

namespace Cert.Gcn.Glue

open Cert.KernelIdeal Cert.KernelIdeal.Gen
open Idealize.ShloMosaic Idealize.ShloMosaic.TcCoe Idealize.SL.Sem Idealize.ShloMosaic.ValueIdx
open Cert.ReferenceIdeal.ReadP
open Cert.Lib.ReadLine

variable (W : Valuation τ sig (Elt Ideal))

set_option maxHeartbeats 200000 in
/-- The aggregated node array after the stretch is the reference's aggregation stage of the node features and the two index
    lists, when the out-degree factor before the stretch is the reference's. -/
theorem stage0_agg (x0 : (⟨S100000x64, .f32⟩ : BufTy).Contents (Elt Ideal)) (x1 x2 : (⟨S1600000, .i32⟩ : BufTy).Contents (Elt Ideal))
    (h0 : W (Proc.devRef .tc main_arg0) = x0) (h1 : W (Proc.devRef .tc main_arg1) = x1) (h2 : W (Proc.devRef .tc main_arg2) = x2)
    (hout : W (Proc.devRef .tc main_v11) = val_main_v11 (F := Ideal) x1) :
    (StableHlo.after hostOps0_4 W (Proc.devRef .tc main_v36) : S100000x64.Idx → EReal) = val_main_v36 (F := Ideal) x0 x1 x2 := by
  read_line
  rw [h0, h1, h2, hout]
  unfold val_main_v36 val_main_v33 val_main_v26 val_main_v25 val_main_v24
  generalize val_main_v11 (F := Ideal) x1 = d
  rfl

set_option maxHeartbeats 200000 in
/-- The in-degree factor recast as a column reads, at `(r, 0)`, the factor at `r`. -/
theorem stage0_indeg (x2 : (⟨S1600000, .i32⟩ : BufTy).Contents (Elt Ideal))
    (hin : W (Proc.devRef .tc main_v23) = val_main_v23 (F := Ideal) x2) (r : Fin 100000) (u : Fin 1) :
    (StableHlo.after hostOps0_4 W (Proc.devRef .tc main_v38) : S100000x1.Idx → EReal) (ix2 r u)
      = val_main_v23 (F := Ideal) x2 (ix1 r) := by
  read_line
  rw [hin]
  generalize val_main_v23 (F := Ideal) x2 = y
  exact shapeCast_a_a1_apply y _ r u

set_option maxHeartbeats 200000 in
/-- The out-degree factor recast as a column reads, at `(r, 0)`, the factor at `r`. -/
theorem stage0_outdeg (x1 : (⟨S1600000, .i32⟩ : BufTy).Contents (Elt Ideal))
    (hout : W (Proc.devRef .tc main_v11) = val_main_v11 (F := Ideal) x1) (r : Fin 100000) (u : Fin 1) :
    (StableHlo.after hostOps0_4 W (Proc.devRef .tc main_v39) : S100000x1.Idx → EReal) (ix2 r u)
      = val_main_v11 (F := Ideal) x1 (ix1 r) := by
  read_line
  rw [hout]
  generalize val_main_v11 (F := Ideal) x1 = y
  exact shapeCast_a_a1_apply y _ r u

set_option maxHeartbeats 200000 in
/-- The first layer's weight matrix is not written by the stretch. -/
theorem stage0_weights (x5 : (⟨S64x64, .f32⟩ : BufTy).Contents (Elt Ideal)) (h5 : W (Proc.devRef .tc main_arg5) = x5) :
    (StableHlo.after hostOps0_4 W (Proc.devRef .tc main_arg5) : S64x64.Idx → EReal) = x5 := by
  read_line
  exact h5

set_option maxHeartbeats 200000 in
/-- The first layer's bias recast as a row reads, at `(0, q)`, the bias at `q`. -/
theorem stage0_bias (x6 : (⟨S64, .f32⟩ : BufTy).Contents (Elt Ideal)) (h6 : W (Proc.devRef .tc main_arg6) = x6)
    (u : Fin 1) (q : Fin 64) :
    (StableHlo.after hostOps0_4 W (Proc.devRef .tc main_v37) : S1x64.Idx → EReal) (ix2 u q) = x6 (ix1 q) := by
  read_line
  rw [h6]
  exact shapeCast_a_1a_apply x6 _ u q

end Cert.Gcn.Glue

end
-- ==== Proof.GlueStage1.lean ====
/-
  The host operations between the two grids and after the second grid, read back at the buffers the grids and the result
  consume, from ANY contents of the buffers before them.

  Between the grids: the first layer's output is aggregated over the graph's edges (its rows gathered along the source
  list, a negative entry wrapped once by the number of nodes, and added up by destination into a zero array); the
  in-degree factor, a vector [100000], becomes a column [100000, 1]; the second layer's bias, a vector [64], becomes a row
  [1, 64]; the projection matrix [128, 8] is cut into its upper and lower halves [64, 8]; the second layer's weight matrix
  is not touched.  After the second grid: the two score arrays are gathered at the two edge index columns (a negative
  entry wrapped once), added, and the bias spread over the edges is added.  Each buffer's contents after the line are
  one pure term over the contents before it; the layout operations are then read at an index by coordinates.
-/
import proofs.«136758_j49890340110359_2_alg».proof.Proof.GlueArgs
import proofs.«136758_j49890340110359_2_alg».proof.Proof.LibReadLine
import proofs.«136758_j49890340110359_2_alg».proof.Proof.LibColumns
import Idealize.ShloMosaic.Lib.ValueLayout

noncomputable section

namespace Cert.Gcn.Glue

open Cert.KernelIdeal Cert.KernelIdeal.Gen
open Idealize.ShloMosaic Idealize.ShloMosaic.TcCoe Idealize.SL.Sem Idealize.ShloMosaic.ValueIdx
open Cert.ReferenceIdeal.ReadP (val_main_v23 val_main_v94 val_main_v101 val_main_v106)
open Cert.Lib.ReadLine

/-! ## Between the two grids -/

set_option maxHeartbeats 200000 in
/-- The aggregation between the two layers: the rows of the first layer's output gathered along the source list
    (negative entries wrapped once) and added up by destination. -/
theorem stage1_aggregate (W : Valuation τ sig (Elt Ideal))
    (x1 x2 : (⟨S1600000, .i32⟩ : BufTy).Contents (Elt Ideal))
    (h1 : W (Proc.devRef .tc main_arg1) = x1) (h2 : W (Proc.devRef .tc main_arg2) = x2) :
    (StableHlo.after hostOps1 W (Proc.devRef .tc main_v50) : S100000x64.Idx → EReal)
      = aggregate (W (Proc.devRef .tc main_v40)) x1 x2 := by
  read_line
  rw [h1, h2]
  generalize W (Proc.devRef .tc main_v40) = H
  rfl

set_option maxHeartbeats 200000 in
/-- The in-degree factor as a column: entry `(r, u)` of the reshaped vector is the vector's entry `r`. -/
theorem stage1_cin (W : Valuation τ sig (Elt Ideal)) (x2 : (⟨S1600000, .i32⟩ : BufTy).Contents (Elt Ideal))
    (hin : W (Proc.devRef .tc main_v23) = val_main_v23 (F := Ideal) x2) (r : Fin 100000) (u : Fin 1) :
    (StableHlo.after hostOps1 W (Proc.devRef .tc main_v54) : S100000x1.Idx → EReal) (ix2 r u)
      = val_main_v23 (F := Ideal) x2 (ix1 r) := by
  read_line
  rw [hin]
  generalize val_main_v23 (F := Ideal) x2 = y
  exact shapeCast_a_a1_apply y _ r u

set_option maxHeartbeats 200000 in
/-- The second layer's weight matrix is the argument, untouched. -/
theorem stage1_weight (W : Valuation τ sig (Elt Ideal)) (x7 : (⟨S64x64, .f32⟩ : BufTy).Contents (Elt Ideal))
    (h7 : W (Proc.devRef .tc main_arg7) = x7) :
    (StableHlo.after hostOps1 W (Proc.devRef .tc main_arg7) : S64x64.Idx → EReal) = x7 := by
  read_line
  exact h7

set_option maxHeartbeats 200000 in
/-- The second layer's bias as a row: entry `(u, q)` of the reshaped vector is the vector's entry `q`. -/
theorem stage1_bias (W : Valuation τ sig (Elt Ideal)) (x8 : (⟨S64, .f32⟩ : BufTy).Contents (Elt Ideal))
    (h8 : W (Proc.devRef .tc main_arg8) = x8) (u : Fin 1) (q : Fin 64) :
    (StableHlo.after hostOps1 W (Proc.devRef .tc main_v53) : S1x64.Idx → EReal) (ix2 u q) = x8 (ix1 q) := by
  read_line
  rw [h8]
  exact shapeCast_a_1a_apply x8 _ u q

set_option maxHeartbeats 200000 in
/-- The upper half of the projection matrix: row `j` of the cut is row `j` of the [128, 8] matrix. -/
theorem stage1_proj_upper (W : Valuation τ sig (Elt Ideal)) (x9 : (⟨S128x8, .f32⟩ : BufTy).Contents (Elt Ideal))
    (h9 : W (Proc.devRef .tc main_arg9) = x9) (j : Fin 64) (k : Fin 8) :
    (StableHlo.after hostOps1 W (Proc.devRef .tc main_v51) : S64x8.Idx → EReal) (ix2 j k)
      = x9 (ix2 (⟨j.val, by omega⟩ : Fin 128) k) := by
  read_line
  rw [h9]
  exact slice2_axis0_apply 0 x9 _ j k ⟨j.val, by omega⟩ (Nat.zero_add _).symm

set_option maxHeartbeats 200000 in
/-- The lower half of the projection matrix: row `j` of the cut is row `64 + j` of the [128, 8] matrix. -/
theorem stage1_proj_lower (W : Valuation τ sig (Elt Ideal)) (x9 : (⟨S128x8, .f32⟩ : BufTy).Contents (Elt Ideal))
    (h9 : W (Proc.devRef .tc main_arg9) = x9) (j : Fin 64) (k : Fin 8) :
    (StableHlo.after hostOps1 W (Proc.devRef .tc main_v52) : S64x8.Idx → EReal) (ix2 j k)
      = x9 (ix2 (⟨64 + j.val, by omega⟩ : Fin 128) k) := by
  read_line
  rw [h9]
  exact slice2_axis0_apply 64 x9 _ j k ⟨64 + j.val, by omega⟩ rfl

/-! ## After the second grid -/

set_option maxHeartbeats 200000 in
/-- The edge predictor's last operations: the two score arrays gathered at the two index columns (negative entries
    wrapped once), added, and the bias spread over the edges added. -/
theorem stage2_out (W : Valuation τ sig (Elt Ideal)) (x3 x4 : (⟨S500000, .i32⟩ : BufTy).Contents (Elt Ideal))
    (x10 : (⟨S8, .f32⟩ : BufTy).Contents (Elt Ideal))
    (h3 : W (Proc.devRef .tc main_arg3) = x3) (h4 : W (Proc.devRef .tc main_arg4) = x4)
    (h10 : W (Proc.devRef .tc main_arg10) = x10) :
    (StableHlo.after hostOps2 W (Proc.devRef .tc main_v73) : S500000x8.Idx → EReal)
      = addf (F := Ideal) (φ := .f32)
          (addf (F := Ideal) (φ := .f32)
            (Host.gather Cert.KernelIdeal.gather_S100000x8_S500000x1_S500000x8_1_0_n_n_0_1_18
              (W (Proc.devRef .tc main_v55_0) : (⟨S100000x8, .f32⟩ : BufTy).Contents (Elt Ideal)) (val_main_v94 (F := Ideal) x3))
            (Host.gather Cert.KernelIdeal.gather_S100000x8_S500000x1_S500000x8_1_0_n_n_0_1_18
              (W (Proc.devRef .tc main_v55_1) : (⟨S100000x8, .f32⟩ : BufTy).Contents (Elt Ideal)) (val_main_v101 (F := Ideal) x4)))
          (val_main_v106 (F := Ideal) x10) := by
  read_line
  rw [h3, h4, h10]
  generalize W (Proc.devRef .tc main_v55_0) = LU
  generalize W (Proc.devRef .tc main_v55_1) = LV
  rfl

end Cert.Gcn.Glue

end
-- ==== Proof.Spec.lean ====
/-
  The two dense stages of a two-layer graph convolution with an edge predictor, entry by entry on the extended reals.

  A node array `A` (one row per node) has already been aggregated over the graph's edges.  The first stage scales row `r` by the
  in-degree factor `cin r`, multiplies by the weight matrix, adds the bias row, clamps below at the float zero and scales the row by
  the out-degree factor `cout r` (`hidden`).  The second stage scales row `r` by `cin r`, multiplies by the weight matrix, adds the
  bias row (`embed`: the node embedding), and `scores` is the embedding times a projection matrix `P`.  Every entry depends on one
  row of `A` only, which is what lets a grid of row blocks compute them block by block.
-/
import Idealize.ShloMosaic.PureOps.Ideal
import Idealize.ShloMosaic.Lib.ValueIdx

noncomputable section

namespace Cert.Gcn

open Idealize.ShloMosaic Idealize.ShloMosaic.ValueIdx

/-- An `a × b` array of extended reals. -/
abbrev Mat (a b : ℕ) : Type := (⟨2, ![a, b]⟩ : Shape).Idx → EReal

/-- The float zero the clamp compares against (its word is never evaluated: both programs spell the same one). -/
abbrev zeroF : EReal := Ideal.ofBits .f32 0x00000000#32

/-- Row `r`, column `q` of `(A ⊙ cin) · W + b`. -/
def embedAt {n K H : ℕ} (A : Mat n K) (cin : Mat n 1) (W : Mat K H) (b : Mat 1 H) (r : Fin n) (q : Fin H) : EReal :=
  (∑ k : Fin K, (A (ix2 r k) * cin (ix2 r 0)) * W (ix2 k q)) + b (ix2 0 q)

/-- The node embedding `(A ⊙ cin) · W + b`. -/
def embed {n K H : ℕ} (A : Mat n K) (cin : Mat n 1) (W : Mat K H) (b : Mat 1 H) : Mat n H :=
  fun i => embedAt A cin W b (i 0) (i 1)

/-- The first layer's output, already scaled for the next aggregation: `max ((A ⊙ cin) · W + b) 0 ⊙ cout`. -/
def hidden {n K H : ℕ} (A : Mat n K) (cin cout : Mat n 1) (W : Mat K H) (b : Mat 1 H) : Mat n H :=
  fun i => max (embedAt A cin W b (i 0) (i 1)) zeroF * cout (ix2 (i 0) 0)

/-- The embedding projected by `P`: row `r`, class `c` is `Σ_j embed[r, j] · P[j, c]`. -/
def scores {n K H C : ℕ} (A : Mat n K) (cin : Mat n 1) (W : Mat K H) (b : Mat 1 H) (P : Mat H C) : Mat n C :=
  fun i => ∑ j : Fin H, embedAt A cin W b (i 0) j * P (ix2 j (i 1))

theorem embed_apply {n K H : ℕ} (A : Mat n K) (cin : Mat n 1) (W : Mat K H) (b : Mat 1 H) (r : Fin n) (q : Fin H) :
    embed A cin W b (ix2 r q) = embedAt A cin W b r q := rfl

theorem hidden_apply {n K H : ℕ} (A : Mat n K) (cin cout : Mat n 1) (W : Mat K H) (b : Mat 1 H) (r : Fin n) (q : Fin H) :
    hidden A cin cout W b (ix2 r q) = max (embedAt A cin W b r q) zeroF * cout (ix2 r 0) := rfl

theorem scores_apply {n K H C : ℕ} (A : Mat n K) (cin : Mat n 1) (W : Mat K H) (b : Mat 1 H) (P : Mat H C) (r : Fin n) (c : Fin C) :
    scores A cin W b P (ix2 r c) = ∑ j : Fin H, embedAt A cin W b r j * P (ix2 j c) := rfl

/-- An entry of the embedding reads one row of `A` and one entry of `cin`: two arrays that agree on that row give the same entry. -/
theorem embedAt_congr {n n' K H : ℕ} (A : Mat n K) (cin : Mat n 1) (A' : Mat n' K) (cin' : Mat n' 1) (W : Mat K H) (b : Mat 1 H)
    (r : Fin n) (r' : Fin n') (hA : ∀ k, A (ix2 r k) = A' (ix2 r' k)) (hc : cin (ix2 r 0) = cin' (ix2 r' 0)) (q : Fin H) :
    embedAt A cin W b r q = embedAt A' cin' W b r' q := by
  unfold embedAt
  rw [hc]
  exact congrArg (· + b (ix2 0 q)) (Finset.sum_congr rfl fun k _ => by rw [hA k])

end Cert.Gcn

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.Layer1Payload.lean ====
/-
  The first layer's block computation is the specification applied to the blocks.

  At one grid point the body holds a block `A` of 5000 aggregated node rows, the matching 5000 entries of the two degree
  factors `cin` and `cout` (columns), the whole weight matrix `W` and the whole bias row `b`.  It scales row `p` of `A` by
  `cin p`, multiplies by `W` into a zero accumulator, adds `b` to every row, clamps below at the float zero and scales row `p`
  by `cout p`.  Over the extended reals the changes of float format are the identity and the product into a zero accumulator is
  the plain sum, so entry `(p, q)` of what the body stores is

      max (Σ_k (A[p, k] · cin[p]) · W[k, q] + b[q]) 0 · cout[p],

  which is `hidden A cin cout W b` at `(p, q)`, word for word.
-/
import proofs.«136758_j49890340110359_2_alg».proof.Proof.Gen.KernelIdeal.Skeleton
import proofs.«136758_j49890340110359_2_alg».proof.Proof.Spec
import proofs.«136758_j49890340110359_2_alg».proof.Proof.LibColumns
import proofs.«136758_j49890340110359_2_alg».proof.Proof.LibDotCols
import Idealize.ShloMosaic.Lib.ValueLayout
import Idealize.ShloMosaic.Lib.Pipeline.Value

noncomputable section

namespace Cert.Gcn.Layer1

open Idealize.ShloMosaic Idealize.ShloMosaic.ValueIdx Cert.KernelIdeal Cert.Lib.DotCols

/-- The product's dimension numbers are the plain ones: contract the columns of the left with the rows of the right. -/
theorem dot_plain : dot_S5000x64_S64x64_S5000x64_1_0_0_1_n_n = DotDims.plain 5000 64 64 := rfl

/-- THE BODY'S STORED BLOCK IS `hidden` OF THE BLOCKS.  The arguments are in the order the body loads them: the node rows, the
    in-degree column, the weights, the bias row, and last the out-degree column. -/
theorem payload_eq_hidden (x0 : Vec Ideal S5000x64 .f32) (x1 x2 : Vec Ideal S5000x1 .f32) (x3 : Vec Ideal S64x64 .f32)
    (x4 : Vec Ideal S1x64 .f32) :
    Gen.k0_pay1 (F := Ideal) x0 x1 x3 x4 x2 = Cert.Gcn.hidden x0 x1 x2 x3 x4 := by
  funext j
  obtain ⟨p, q, rfl⟩ : ∃ (p : Fin 5000) (q : Fin 64), j = ix2 p q := ⟨j 0, j 1, eq_ix2 j⟩
  rw [hidden_apply]
  unfold Gen.k0_pay1 embedAt
  simp only [shapeCast_self]
  rw [mulf_apply, maximumf_apply, addf_apply, broadcast_apply, broadcastTo_a1_ab_apply, broadcastTo_1b_ab_apply]
  unfold Idealize.ShloMosaic.matmul
  rw [matmul_cols_apply _ dot_plain]
  simp only [truncf_apply, mulf_apply, broadcastTo_a1_ab_apply]
  rfl

end Cert.Gcn.Layer1

end
-- ==== Proof.Layer1Reads.lean ====
/-
  The blocks the first layer's grid stages, read as rows of the arrays.

  The grid has 20 points; point `t` stages rows `5000·t … 5000·t + 4999` of the aggregated node array and of the two degree
  columns, and the whole weight matrix and the whole bias row.  An entry of `hidden` in row `r` reads row `r` of the node array,
  entry `r` of each degree column, the weights and the bias, so `hidden` of the blocks at local row `p` is `hidden` of the whole
  arrays at row `5000·t + p`.
-/
import proofs.«136758_j49890340110359_2_alg».proof.Proof.Gen.KernelIdeal.Frame
import proofs.«136758_j49890340110359_2_alg».proof.Proof.Layer1Payload
import Idealize.ShloMosaic.Lib.Pipeline.Value

noncomputable section

namespace Cert.Gcn.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A whole-block access starts at offset zero on both axes. -/
theorem zero_offsets : (![0, 0] : Fin 2 → Nat) = fun _ => 0 := funext fun a => by fin_cases a <;> rfl

/-- The windows' block indices over the grid: the node rows, the two degree columns and the output move with the point along the
    rows; the weights and the bias stay at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- An entry of `hidden` of a block of 5000 rows starting at row `5000·t` is the entry of `hidden` of the whole arrays in that row,
    when the block's rows are the arrays' rows and the weights and the bias are the same. -/
theorem hidden_of_rows (A : Mat 100000 64) (cin cout : Mat 100000 1) (W : Mat 64 64) (b : Mat 1 64)
    (A' : Mat 5000 64) (cin' cout' : Mat 5000 1) (W' : Mat 64 64) (b' : Mat 1 64) (t : ℕ)
    (hA : ∀ (p : Fin 5000) (k : Fin 64) (r : Fin 100000), r.val = 5000 * t + p.val → A' (ix2 p k) = A (ix2 r k))
    (hcin : ∀ (p : Fin 5000) (r : Fin 100000), r.val = 5000 * t + p.val → cin' (ix2 p 0) = cin (ix2 r 0))
    (hcout : ∀ (p : Fin 5000) (r : Fin 100000), r.val = 5000 * t + p.val → cout' (ix2 p 0) = cout (ix2 r 0))
    (hW : W' = W) (hb : b' = b)
    (p : Fin 5000) (q : Fin 64) (r : Fin 100000) (hr : r.val = 5000 * t + p.val) :
    hidden A' cin' cout' W' b' (ix2 p q) = hidden A cin cout W b (ix2 r q) := by
  subst hW hb
  rw [hidden_apply, hidden_apply, hcout p r hr,
    embedAt_congr A' cin' A cin W' b' p r (fun k => hA p k r hr) (hcin p r hr) q]

/-- Point `t`'s block of the node rows is rows `5000·t … 5000·t + 4999` of the array. -/
theorem rows_block (c : Dev nD) (t : Fin cfg0.N) (p : Fin 5000) (k : Fin 64) (r : Fin 100000)
    (hr : r.val = 5000 * t.val + p.val) :
    (iblk0 V c 0 t : Vec Ideal S5000x64 .f32) (ix2 p k) = (V c main_v36 : S100000x64.Idx → EReal) (ix2 r k) := by
  obtain ⟨e0, e1, -⟩ := block_indices t
  unfold iblk0
  rw [View.read_apply]
  show V c main_v36 _ = V c main_v36 _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- Point `t`'s block of the in-degree column is entries `5000·t … 5000·t + 4999` of the column. -/
theorem cin_block (c : Dev nD) (t : Fin cfg0.N) (p : Fin 5000) (r : Fin 100000) (hr : r.val = 5000 * t.val + p.val) :
    (iblk0 V c 1 t : Vec Ideal S5000x1 .f32) (ix2 p 0) = (V c main_v38 : S100000x1.Idx → EReal) (ix2 r 0) := by
  obtain ⟨-, -, e0, e1, -⟩ := block_indices t
  unfold iblk0
  rw [View.read_apply]
  show V c main_v38 _ = V c main_v38 _
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 1 + 1 * (0 : Fin 1).val = (0 : Fin 1).val; rw [e1]; omega

/-- Point `t`'s block of the out-degree column is entries `5000·t … 5000·t + 4999` of the column. -/
theorem cout_block (c : Dev nD) (t : Fin cfg0.N) (p : Fin 5000) (r : Fin 100000) (hr : r.val = 5000 * t.val + p.val) :
    (iblk0 V c 2 t : Vec Ideal S5000x1 .f32) (ix2 p 0) = (V c main_v39 : S100000x1.Idx → EReal) (ix2 r 0) := by
  obtain ⟨-, -, -, -, e0, e1, -⟩ := block_indices t
  unfold iblk0
  rw [View.read_apply]
  show V c main_v39 _ = V c main_v39 _
  refine congrArg _ (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * (0 : Fin 1).val = (0 : Fin 1).val; rw [e1]; omega

/-- Every point's block of the weights is the whole weight matrix. -/
theorem weights_block (c : Dev nD) (t : Fin cfg0.N) :
    (iblk0 V c 3 t : Vec Ideal S64x64 .f32) = (V c main_arg5 : S64x64.Idx → EReal) := by
  obtain ⟨-, -, -, -, -, -, e0, e1, -⟩ := block_indices t
  funext y
  unfold iblk0
  rw [View.read_apply]
  show V c main_arg5 _ = V c main_arg5 y
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- Every point's block of the bias is the whole bias row. -/
theorem bias_block (c : Dev nD) (t : Fin cfg0.N) :
    (iblk0 V c 4 t : Vec Ideal S1x64 .f32) = (V c main_v37 : S1x64.Idx → EReal) := by
  obtain ⟨-, -, -, -, -, -, -, -, e0, e1, -⟩ := block_indices t
  funext y
  unfold iblk0
  rw [View.read_apply]
  show V c main_v37 _ = V c main_v37 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

end Cert.Gcn.Layer1

end
-- ==== Proof.Layer1Blocks.lean ====
/-
  From the blocks to the array: the first layer's output array is `hidden` of the arrays the region finds.

  Point `t` of the grid writes rows `5000·t … 5000·t + 4999` of the output.  What the body leaves there is `hidden` of the
  point's blocks, and those blocks are rows `5000·t …` of the node array and of the degree columns with the whole weights and bias,
  so what point `t` writes back is block `t` of `hidden` of the whole arrays.  Row `r` lies in the block of point `r / 5000`, so the
  20 blocks cover the output, which therefore ends holding `hidden` of the arrays.
-/
import proofs.«136758_j49890340110359_2_alg».proof.Proof.Gen.KernelIdeal.Frame
import proofs.«136758_j49890340110359_2_alg».proof.Proof.Layer1Reads
import Idealize.ShloMosaic.Lib.Pipeline.Value

noncomputable section

namespace Cert.Gcn.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- WHAT POINT `t` WRITES BACK is block `t` of `hidden` of the arrays as the region finds them. -/
theorem written_block (c : Dev nD) (t : Fin cfg0.N) :
    (dat0 V c).flushed 5 t = ((cfg0.win 5).blk t).view.read (Elt Ideal)
      (hidden (V c main_v36) (V c main_v38) (V c main_v39) (V c main_arg5) (V c main_v37)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S5000x1) zero_offsets,
    View.ld_unit_zero (S := S64x64) zero_offsets, View.ld_unit_zero (S := S1x64) zero_offsets]
  rw [payload_eq_hidden (iblk0 V c 0 t) (iblk0 V c 1 t) (iblk0 V c 2 t) (iblk0 V c 3 t) (iblk0 V c 4 t)]
  obtain ⟨-, -, -, -, -, -, -, -, -, -, e0, e1⟩ := block_indices t
  have hN : cfg0.N = 20 := N_0
  have ht := t.isLt
  funext j
  obtain ⟨p, q, rfl⟩ : ∃ (p : Fin 5000) (q : Fin 64), j = ix2 p q := ⟨j 0, j 1, eq_ix2 j⟩
  obtain ⟨r, hr⟩ : ∃ r : Fin 100000, r.val = 5000 * t.val + p.val := ⟨⟨5000 * t.val + p.val, by omega⟩, rfl⟩
  have hemb : ((cfg0.win 5).blk t).view.emb (ix2 p q) = (ix2 r q : S100000x64.Idx) := funext fun a => Fin.ext (by
    match a with
    | ⟨0, _⟩ => show win0_5.index t (0 : Fin 2) * 5000 + 1 * p.val = r.val; rw [e0, hr]; omega
    | ⟨1, _⟩ => show win0_5.index t (1 : Fin 2) * 64 + 1 * q.val = q.val; rw [e1]; omega)
  show hidden (iblk0 V c 0 t) (iblk0 V c 1 t) (iblk0 V c 2 t) (iblk0 V c 3 t) (iblk0 V c 4 t) (ix2 p q)
    = hidden (V c main_v36) (V c main_v38) (V c main_v39) (V c main_arg5) (V c main_v37) (((cfg0.win 5).blk t).view.emb (ix2 p q))
  rw [hemb]
  exact hidden_of_rows (V c main_v36) (V c main_v38) (V c main_v39) (V c main_arg5) (V c main_v37)
    (iblk0 V c 0 t) (iblk0 V c 1 t) (iblk0 V c 2 t) (iblk0 V c 3 t) (iblk0 V c 4 t) t.val
    (fun p k r hr => rows_block V c t p k r hr) (fun p r hr => cin_block V c t p r hr)
    (fun p r hr => cout_block V c t p r hr) (weights_block V c t) (bias_block V c t) p q r hr

/-- An index of the output is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v40).slice (win0_5.rect t)).set ↔ _
  rw [View.set_slice_whole, Rect.mem_set_unit]
  exact Iff.rfl

/-- THE BLOCKS COVER THE OUTPUT: row `r` is in the block of point `r / 5000`. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

/-- THE FIRST LAYER'S OUTPUT ARRAY after the region is `hidden` of the arrays the region finds. -/
theorem final (c : Dev nD) :
    (dat0 V c).arrAt 5 cfg0.N
      = hidden (V c main_v36) (V c main_v38) (V c main_v39) (V c main_arg5) (V c main_v37) :=
  (dat0 V c).arrAt_eq_of_cover 5 (hidden (V c main_v36) (V c main_v38) (V c main_v39) (V c main_arg5) (V c main_v37))
    (fun t _ => written_block V c t) covered

end Cert.Gcn.Layer1

end
-- ==== Proof.Layer2Payload.lean ====
/-
  The second layer's body, entry by entry on the extended reals.

  The body of the second region receives a block of 5000 aggregated node rows `x0`, the block's in-degree factors as a column `x1`,
  the weight matrix `x2`, the bias row `x3` and a projection matrix `x4`.  It scales row `p` of `x0` by `x1[p]`, multiplies by the
  weights, adds the bias row — the node embedding of the block — and multiplies the embedding by the projection matrix.  Over the
  extended reals every format change is the identity and each matrix product is the plain sum over the contracted axis, so the
  first value is `Cert.Gcn.embed` of the blocks and the stored one is `Cert.Gcn.scores` of the blocks.
-/
import proofs.«136758_j49890340110359_2_alg».proof.Proof.Gen.KernelIdeal.Skeleton
import proofs.«136758_j49890340110359_2_alg».proof.Proof.Spec
import proofs.«136758_j49890340110359_2_alg».proof.Proof.LibColumns
import proofs.«136758_j49890340110359_2_alg».proof.Proof.LibDotCols
import Idealize.ShloMosaic.Lib.ValueLayout
import Idealize.ShloMosaic.Lib.Pipeline.Value

noncomputable section

open scoped BigOperators

namespace Cert.Gcn.Layer2

open Idealize.ShloMosaic Idealize.ShloMosaic.ValueIdx
open Cert.KernelIdeal Cert.KernelIdeal.Gen

/-- The dimension numbers of the body's two products are the plain ones: contract the left operand's columns with the right
    operand's rows. -/
theorem dims_hidden : dot_S5000x64_S64x64_S5000x64_1_0_0_1_n_n = DotDims.plain 5000 64 64 := rfl
theorem dims_proj : dot_S5000x64_S64x8_S5000x8_1_0_0_1_n_n = DotDims.plain 5000 64 8 := rfl

/-- The body's first value at row `p`, column `q`: `∑ k, (x0[p, k] · x1[p]) · x2[k, q] + x3[q]`. -/
theorem pay_embed_apply (x0 : FVec Ideal S5000x64 .f32) (x1 : FVec Ideal S5000x1 .f32) (x2 : FVec Ideal S64x64 .f32)
    (x3 : FVec Ideal S1x64 .f32) (p : Fin 5000) (q : Fin 64) :
    k1_pay1 (F := Ideal) x0 x1 x2 x3 (ix2 p q) = Cert.Gcn.embedAt x0 x1 x2 x3 p q := by
  unfold k1_pay1 Cert.Gcn.embedAt
  simp only [shapeCast_self]
  rw [truncf_apply, addf_apply, broadcastTo_1b_ab_apply]
  refine congrArg (· + x3 (ix2 0 q)) ?_
  refine (Cert.Lib.DotCols.matmul_cols_apply _ dims_hidden none _ _ p q).trans ?_
  refine Finset.sum_congr rfl fun k _ => ?_
  rw [truncf_apply, truncf_apply, mulf_apply, broadcastTo_a1_ab_apply]

/-- The body's first value is the embedding of the blocks. -/
theorem pay_embed (x0 : FVec Ideal S5000x64 .f32) (x1 : FVec Ideal S5000x1 .f32) (x2 : FVec Ideal S64x64 .f32)
    (x3 : FVec Ideal S1x64 .f32) :
    (k1_pay1 (F := Ideal) x0 x1 x2 x3 : S5000x64.Idx → EReal) = Cert.Gcn.embed x0 x1 x2 x3 := by
  funext j
  obtain ⟨p, q, rfl⟩ : ∃ (p : Fin 5000) (q : Fin 64), j = ix2 p q := ⟨j 0, j 1, eq_ix2 j⟩
  exact pay_embed_apply x0 x1 x2 x3 p q

/-- What the body stores in the first output: the scores of the blocks under the first projection matrix. -/
theorem pay_scores_u (x0 : FVec Ideal S5000x64 .f32) (x1 : FVec Ideal S5000x1 .f32) (x2 : FVec Ideal S64x64 .f32)
    (x3 : FVec Ideal S1x64 .f32) (x4 : FVec Ideal S64x8 .f32) :
    (k1_pay2 (F := Ideal) x0 x1 x2 x3 x4 : S5000x8.Idx → EReal) = Cert.Gcn.scores x0 x1 x2 x3 x4 := by
  funext j
  obtain ⟨p, q, rfl⟩ : ∃ (p : Fin 5000) (q : Fin 8), j = ix2 p q := ⟨j 0, j 1, eq_ix2 j⟩
  unfold k1_pay2
  simp only [shapeCast_self]
  refine (Cert.Lib.DotCols.matmul_cols_apply _ dims_proj none _ _ p q).trans ?_
  rw [Cert.Gcn.scores_apply]
  refine Finset.sum_congr rfl fun k _ => ?_
  rw [pay_embed_apply, truncf_apply]

/-- What the body stores in the second output: the scores of the blocks under the second projection matrix. -/
theorem pay_scores_v (x0 : FVec Ideal S5000x64 .f32) (x1 : FVec Ideal S5000x1 .f32) (x2 : FVec Ideal S64x64 .f32)
    (x3 : FVec Ideal S1x64 .f32) (x4 : FVec Ideal S64x8 .f32) :
    (k1_pay3 (F := Ideal) x0 x1 x2 x3 x4 : S5000x8.Idx → EReal) = Cert.Gcn.scores x0 x1 x2 x3 x4 := by
  funext j
  obtain ⟨p, q, rfl⟩ : ∃ (p : Fin 5000) (q : Fin 8), j = ix2 p q := ⟨j 0, j 1, eq_ix2 j⟩
  unfold k1_pay3
  simp only [shapeCast_self]
  refine (Cert.Lib.DotCols.matmul_cols_apply _ dims_proj none _ _ p q).trans ?_
  rw [Cert.Gcn.scores_apply]
  refine Finset.sum_congr rfl fun k _ => ?_
  rw [pay_embed_apply, truncf_apply]

end Cert.Gcn.Layer2

end
-- ==== Proof.Layer2Point.lean ====
/-
  The second region at one grid point, entry by entry on the extended reals.

  The region walks a grid of 20 points.  Point `t` reads rows `5000·t … 5000·t + 4999` of the aggregated node array and of the
  in-degree column, and the weight matrix, the bias row and the two projection matrices whole.  An entry of `Cert.Gcn.scores`
  depends on one row of the node array and one entry of the in-degree column only, so the scores of the blocks at local row `p` are
  the scores of the whole arrays at row `5000·t + p`; and what the body leaves in each output buffer is the scores of the blocks.
-/
import proofs.«136758_j49890340110359_2_alg».proof.Proof.Gen.KernelIdeal.Frame
import proofs.«136758_j49890340110359_2_alg».proof.Proof.Layer2Payload
import Idealize.ShloMosaic.Lib.Pipeline.Value

noncomputable section

open scoped BigOperators

namespace Cert.Gcn.Layer2

open Cert.KernelIdeal Cert.KernelIdeal.Gen Idealize.ShloMosaic Idealize.ShloMosaic.TcCoe Idealize.SL.Sem
open Idealize.ShloMosaic.ValueIdx
open Idealize.ShloMosaic.Pipeline (Dat)

/-! ## Scores of a block of rows -/

/-- The scores at local row `p` of arrays that agree with `A`, `cin` on row `r` (and with the same weights, bias and projection)
    are the scores of `A`, `cin` at row `r`. -/
theorem scores_block (A : Mat 100000 64) (cin : Mat 100000 1) (W : Mat 64 64) (b : Mat 1 64) (P : Mat 64 8)
    (A' : Mat 5000 64) (cin' : Mat 5000 1) (W' : Mat 64 64) (b' : Mat 1 64) (P' : Mat 64 8)
    (r : Fin 100000) (p : Fin 5000) (q : Fin 8)
    (hA : ∀ k : Fin 64, A' (ix2 p k) = A (ix2 r k)) (hc : cin' (ix2 p 0) = cin (ix2 r 0))
    (hW : W' = W) (hb : b' = b) (hP : P' = P) :
    scores A' cin' W' b' P' (ix2 p q) = scores A cin W b P (ix2 r q) := by
  subst hW hb hP
  rw [scores_apply, scores_apply]
  exact Finset.sum_congr rfl fun j _ => by rw [embedAt_congr A' cin' A cin W' b' p r hA hc j]

/-! ## The windows' index maps over the grid -/

theorem zeros2 : (![0, 0] : Fin 2 → Nat) = fun _ => 0 := funext fun a => by fin_cases a <;> rfl

/-- The printed index maps, decided over the 20 points: the node rows, the in-degree column and the two outputs are at row block
    `t`, column block 0; the weights, the bias row and the projection matrices are at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## The input windows' blocks at a point -/

variable (V : (c : Dev nD) → (b : Ref sig .tc) → Buf (Elt Ideal) ((c : Thread nD τ).loc b))

/-- The node-row window's block at point `t` is rows `5000·t …` of the aggregated node array. -/
theorem rows_block (c : Dev nD) (t : Fin cfg1.N) (y : S5000x64.Idx) (i : S100000x64.Idx)
    (h0 : (i 0).val = 5000 * t.val + (y 0).val) (h1 : (i 1).val = (y 1).val) :
    (iblk1 V c 0 t : Vec Ideal S5000x64 .f32) y = (V c main_v50 : S100000x64.Idx → EReal) i := by
  obtain ⟨e0, e1, -⟩ := index_facts t
  unfold iblk1
  rw [View.read_apply]
  show V c main_v50 _ = V c main_v50 _
  refine congrArg _ ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The in-degree window's block at point `t` is rows `5000·t …` of the in-degree column. -/
theorem indeg_block (c : Dev nD) (t : Fin cfg1.N) (y : S5000x1.Idx) (i : S100000x1.Idx)
    (h0 : (i 0).val = 5000 * t.val + (y 0).val) (h1 : (i 1).val = (y 1).val) :
    (iblk1 V c 1 t : Vec Ideal S5000x1 .f32) y = (V c main_v54 : S100000x1.Idx → EReal) i := by
  obtain ⟨-, -, e0, e1, -⟩ := index_facts t
  unfold iblk1
  rw [View.read_apply]
  show V c main_v54 _ = V c main_v54 _
  refine congrArg _ ?_
  funext a
  apply Fin.ext
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1, h1]; omega

/-- The weight window's block at every point is the whole weight matrix. -/
theorem weights_block (c : Dev nD) (t : Fin cfg1.N) :
    (iblk1 V c 2 t : Vec Ideal S64x64 .f32) = (V c main_arg7 : S64x64.Idx → EReal) := by
  obtain ⟨-, -, -, -, e0, e1, -⟩ := index_facts t
  funext y
  unfold iblk1
  rw [View.read_apply]
  show V c main_arg7 _ = V c main_arg7 y
  refine congrArg _ ?_
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The bias window's block at every point is the whole bias row. -/
theorem bias_block (c : Dev nD) (t : Fin cfg1.N) :
    (iblk1 V c 3 t : Vec Ideal S1x64 .f32) = (V c main_v53 : S1x64.Idx → EReal) := by
  obtain ⟨-, -, -, -, -, -, e0, e1, -⟩ := index_facts t
  funext y
  unfold iblk1
  rw [View.read_apply]
  show V c main_v53 _ = V c main_v53 y
  refine congrArg _ ?_
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The first projection window's block at every point is the whole first projection matrix. -/
theorem proj_u_block (c : Dev nD) (t : Fin cfg1.N) :
    (iblk1 V c 4 t : Vec Ideal S64x8 .f32) = (V c main_v51 : S64x8.Idx → EReal) := by
  obtain ⟨-, -, -, -, -, -, -, -, e0, e1, -⟩ := index_facts t
  funext y
  unfold iblk1
  rw [View.read_apply]
  show V c main_v51 _ = V c main_v51 y
  refine congrArg _ ?_
  funext a
  apply Fin.ext
  match a with
  | ⟨0, _⟩ => show win1_4.index t (0 : Fin 2) * 64 + 1 * (y 0).val = (y 0).val; rw [e0]; omega
  | ⟨1, _⟩ => show win1_4.index t (1 : Fin 2) * 8 + 1 * (y 1).val = (y 1).val; rw [e1]; omega

/-- The second projection window's block at every point is the whole second projection matrix. -/
theorem proj_v_block (c : Dev nD) (t : Fin cfg1.N) :
    (iblk1 V c 5 t : Vec Ideal S64x8 .f32) = (V c main_v52 : S64x8.Idx → EReal) := by
  obtain ⟨-, -, -, -, -, -, -, -, -, -, e0, e1, -⟩ := index_facts t
  funext y
  unfold iblk1
  rw [View.read_apply]
  show V c main_v52 _ = V c main_v52 y
  refine congrArg _ ?_
  funext a
  apply Fin.ext
  match a with
  | ⟨0, _⟩ => show win1_5.index t (0 : Fin 2) * 64 + 1 * (y 0).val = (y 0).val; rw [e0]; omega
  | ⟨1, _⟩ => show win1_5.index t (1 : Fin 2) * 8 + 1 * (y 1).val = (y 1).val; rw [e1]; omega

/-! ## What the body leaves in the output windows' buffers -/

/-- The first output's buffer after the body: its one whole-buffer store of the scores of the loaded blocks. -/
theorem out_u_eq (x0 : Vec Ideal S5000x64 .f32) (x1 : Vec Ideal S5000x1 .f32) (x2 : Vec Ideal S64x64 .f32)
    (x3 : Vec Ideal S1x64 .f32) (x4 : Vec Ideal S64x8 .f32) (x5 : Vec Ideal S64x8 .f32) :
    (out1_6 (F := Ideal) x0 x1 x2 x3 x4 x5 : S5000x8.Idx → EReal) = scores x0 x1 x2 x3 x4 := by
  unfold out1_6
  rw [View.canon_unit_zero zeros2]
  simp only [View.ld_unit_zero (S := S5000x64) zeros2, View.ld_unit_zero (S := S5000x1) zeros2,
    View.ld_unit_zero (S := S64x64) zeros2, View.ld_unit_zero (S := S1x64) zeros2, View.ld_unit_zero (S := S64x8) zeros2]
  exact pay_scores_u x0 x1 x2 x3 x4

/-- The second output's buffer after the body: its one whole-buffer store of the scores under the second projection. -/
theorem out_v_eq (x0 : Vec Ideal S5000x64 .f32) (x1 : Vec Ideal S5000x1 .f32) (x2 : Vec Ideal S64x64 .f32)
    (x3 : Vec Ideal S1x64 .f32) (x4 : Vec Ideal S64x8 .f32) (x5 : Vec Ideal S64x8 .f32) :
    (out1_7 (F := Ideal) x0 x1 x2 x3 x4 x5 : S5000x8.Idx → EReal) = scores x0 x1 x2 x3 x5 := by
  unfold out1_7
  rw [View.canon_unit_zero zeros2]
  simp only [View.ld_unit_zero (S := S5000x64) zeros2, View.ld_unit_zero (S := S5000x1) zeros2,
    View.ld_unit_zero (S := S64x64) zeros2, View.ld_unit_zero (S := S1x64) zeros2, View.ld_unit_zero (S := S64x8) zeros2]
  exact pay_scores_v x0 x1 x2 x3 x5

/-! ## What a point writes back -/

/-- The scores of the blocks at point `t`, at local row `p`, are the scores of the whole arrays at row `5000·t + p`. -/
theorem scores_at_point (c : Dev nD) (t : Fin cfg1.N) (P' : Vec Ideal S64x8 .f32) (P : S64x8.Idx → EReal) (hP : P' = P)
    (p : Fin 5000) (q : Fin 8) (r : Fin 100000) (hr : r.val = 5000 * t.val + p.val) :
    scores (iblk1 V c 0 t : Vec Ideal S5000x64 .f32) (iblk1 V c 1 t : Vec Ideal S5000x1 .f32)
        (iblk1 V c 2 t : Vec Ideal S64x64 .f32) (iblk1 V c 3 t : Vec Ideal S1x64 .f32) P' (ix2 p q)
      = scores (V c main_v50 : S100000x64.Idx → EReal) (V c main_v54 : S100000x1.Idx → EReal)
          (V c main_arg7 : S64x64.Idx → EReal) (V c main_v53 : S1x64.Idx → EReal) P (ix2 r q) :=
  scores_block _ _ _ _ _ _ _ _ _ _ r p q
    (fun k => rows_block V c t (ix2 p k) (ix2 r k) hr rfl)
    (indeg_block V c t (ix2 p 0) (ix2 r 0) hr rfl)
    (weights_block V c t) (bias_block V c t) hP

end Cert.Gcn.Layer2

end
-- ==== Proof.Layer2Blocks.lean ====
/-
  The second region's two output arrays, entry by entry on the extended reals.

  Point `t` of the region's grid writes rows `5000·t … 5000·t + 4999` of each output, and what it writes is the scores of the
  blocks it read, which are the scores of the whole arrays on those rows: what point `t` writes back is block `t` of the scores of
  the whole arrays.  The 20 blocks tile the 100000 rows (row `r` lies in block `r / 5000`), so each output array ends holding the
  scores of the arrays the region was entered with, under the first and the second projection matrix.
-/
import proofs.«136758_j49890340110359_2_alg».proof.Proof.Layer2Point

noncomputable section

open scoped BigOperators

namespace Cert.Gcn.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The scores of the arrays the region is entered with, under the first projection matrix. -/
abbrev scoresU (c : Dev nD) : S100000x8.Idx → EReal :=
  scores (V c main_v50 : S100000x64.Idx → EReal) (V c main_v54 : S100000x1.Idx → EReal) (V c main_arg7 : S64x64.Idx → EReal)
    (V c main_v53 : S1x64.Idx → EReal) (V c main_v51 : S64x8.Idx → EReal)

/-- The scores of the arrays the region is entered with, under the second projection matrix. -/
abbrev scoresV (c : Dev nD) : S100000x8.Idx → EReal :=
  scores (V c main_v50 : S100000x64.Idx → EReal) (V c main_v54 : S100000x1.Idx → EReal) (V c main_arg7 : S64x64.Idx → EReal)
    (V c main_v53 : S1x64.Idx → EReal) (V c main_v52 : S64x8.Idx → EReal)

/-! ## What point `t` writes back -/

/-- Point `t` writes back, to the first output, block `t` of the scores of the whole arrays. -/
theorem flushed_u (c : Dev nD) (t : Fin cfg1.N) :
    (dat1 V c).flushed 6 t = ((cfg1.win 6).blk t).view.read (Elt Ideal) (scoresU V c) := by
  show (cfg1.win 6).cut (grid1.coords t) ((dat1 V c).after 6 t) = _
  rw [after1_6, out_u_eq]
  obtain ⟨-, -, -, -, -, -, -, -, -, -, -, -, e0, e1, -⟩ := index_facts t
  have hN : cfg1.N = 20 := N_1
  have ht : t.val < 20 := hN ▸ t.isLt
  refine funext fun (j : S5000x8.Idx) => ?_
  obtain ⟨p, q, rfl⟩ : ∃ (p : Fin 5000) (q : Fin 8), j = ix2 p q := ⟨j 0, j 1, eq_ix2 j⟩
  have hp : p.val < 5000 := p.isLt
  have hi : ((cfg1.win 6).blk t).view.emb (ix2 p q) = (ix2 (⟨5000 * t.val + p.val, by omega⟩ : Fin 100000) q : S100000x8.Idx) := by
    funext a
    apply Fin.ext
    match a with
    | ⟨0, _⟩ => show win1_6.index t (0 : Fin 2) * 5000 + 1 * p.val = 5000 * t.val + p.val; rw [e0]; omega
    | ⟨1, _⟩ => show win1_6.index t (1 : Fin 2) * 8 + 1 * q.val = q.val; rw [e1]; omega
  show scores _ _ _ _ _ (ix2 p q) = scoresU V c (((cfg1.win 6).blk t).view.emb (ix2 p q))
  rw [hi]
  exact scores_at_point V c t _ _ (proj_u_block V c t) p q _ rfl

/-- Point `t` writes back, to the second output, block `t` of the scores of the whole arrays under the second projection. -/
theorem flushed_v (c : Dev nD) (t : Fin cfg1.N) :
    (dat1 V c).flushed 7 t = ((cfg1.win 7).blk t).view.read (Elt Ideal) (scoresV V c) := by
  show (cfg1.win 7).cut (grid1.coords t) ((dat1 V c).after 7 t) = _
  rw [after1_7, out_v_eq]
  obtain ⟨-, -, -, -, -, -, -, -, -, -, -, -, -, -, e0, e1⟩ := index_facts t
  have hN : cfg1.N = 20 := N_1
  have ht : t.val < 20 := hN ▸ t.isLt
  refine funext fun (j : S5000x8.Idx) => ?_
  obtain ⟨p, q, rfl⟩ : ∃ (p : Fin 5000) (q : Fin 8), j = ix2 p q := ⟨j 0, j 1, eq_ix2 j⟩
  have hp : p.val < 5000 := p.isLt
  have hi : ((cfg1.win 7).blk t).view.emb (ix2 p q) = (ix2 (⟨5000 * t.val + p.val, by omega⟩ : Fin 100000) q : S100000x8.Idx) := by
    funext a
    apply Fin.ext
    match a with
    | ⟨0, _⟩ => show win1_7.index t (0 : Fin 2) * 5000 + 1 * p.val = 5000 * t.val + p.val; rw [e0]; omega
    | ⟨1, _⟩ => show win1_7.index t (1 : Fin 2) * 8 + 1 * q.val = q.val; rw [e1]; omega
  show scores _ _ _ _ _ (ix2 p q) = scoresV V c (((cfg1.win 7).blk t).view.emb (ix2 p q))
  rw [hi]
  exact scores_at_point V c t _ _ (proj_v_block V c t) p q _ rfl

/-! ## The blocks tile the outputs -/

/-- An index of the first output is in point `t`'s block iff each coordinate is in the block's range on its axis. -/
theorem mem_blk_u (t : Fin cfg1.N) (i : S100000x8.Idx) :
    i ∈ ((cfg1.win 6).blk t).view.set
      ↔ ∀ a : Fin 2, win1_6.index t a * S5000x8.size a ≤ (i a).val ∧ (i a).val < win1_6.index t a * S5000x8.size a + S5000x8.size a := by
  show i ∈ ((View.whole main_v55_0).slice (win1_6.rect t)).set ↔ _
  rw [View.set_slice_whole, Rect.mem_set_unit]
  exact Iff.rfl

/-- The same for the second output. -/
theorem mem_blk_v (t : Fin cfg1.N) (i : S100000x8.Idx) :
    i ∈ ((cfg1.win 7).blk t).view.set
      ↔ ∀ a : Fin 2, win1_7.index t a * S5000x8.size a ≤ (i a).val ∧ (i a).val < win1_7.index t a * S5000x8.size a + S5000x8.size a := by
  show i ∈ ((View.whole main_v55_1).slice (win1_7.rect t)).set ↔ _
  rw [View.set_slice_whole, Rect.mem_set_unit]
  exact Iff.rfl

/-- Row `r` of the first output lies in the block of point `r / 5000`, which is written back. -/
theorem cover_u (i : S100000x8.Idx) :
    ∃ t : Fin cfg1.N, (cfg1.win 6).flush t = true ∧ i ∈ ((cfg1.win 6).blk t).view.set := by
  have hi0 : (i 0).val < 100000 := (i 0).isLt
  have hi1 : (i 1).val < 8 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1, -⟩ := index_facts t
  refine ⟨t, flush1_6 t, ?_⟩
  rw [mem_blk_u]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 8 ≤ (i 1).val ∧ (i 1).val < win1_6.index t (1 : Fin 2) * 8 + 8
    rw [e1]; omega

/-- Row `r` of the second output lies in the block of point `r / 5000`, which is written back. -/
theorem cover_v (i : S100000x8.Idx) :
    ∃ t : Fin cfg1.N, (cfg1.win 7).flush t = true ∧ i ∈ ((cfg1.win 7).blk t).view.set := by
  have hi0 : (i 0).val < 100000 := (i 0).isLt
  have hi1 : (i 1).val < 8 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1⟩ := index_facts t
  refine ⟨t, flush1_7 t, ?_⟩
  rw [mem_blk_v]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 8 ≤ (i 1).val ∧ (i 1).val < win1_7.index t (1 : Fin 2) * 8 + 8
    rw [e1]; omega

/-! ## The output arrays after the region -/

/-- THE FIRST OUTPUT after the region's 20 points: the scores, under the first projection matrix, of the arrays the region was
    entered with. -/
theorem final_u (c : Dev nD) :
    (dat1 V c).arrAt 6 cfg1.N
      = scores (V c main_v50 : S100000x64.Idx → EReal) (V c main_v54 : S100000x1.Idx → EReal)
          (V c main_arg7 : S64x64.Idx → EReal) (V c main_v53 : S1x64.Idx → EReal) (V c main_v51 : S64x8.Idx → EReal) :=
  (dat1 V c).arrAt_eq_of_cover 6 (scoresU V c) (fun t _ => flushed_u V c t) cover_u

/-- THE SECOND OUTPUT after the region's 20 points: the scores under the second projection matrix. -/
theorem final_v (c : Dev nD) :
    (dat1 V c).arrAt 7 cfg1.N
      = scores (V c main_v50 : S100000x64.Idx → EReal) (V c main_v54 : S100000x1.Idx → EReal)
          (V c main_arg7 : S64x64.Idx → EReal) (V c main_v53 : S1x64.Idx → EReal) (V c main_v52 : S64x8.Idx → EReal) :=
  (dat1 V c).arrAt_eq_of_cover 7 (scoresV V c) (fun t _ => flushed_v V c t) cover_v

end Cert.Gcn.Layer2

end
-- ==== Proof.RefLayers.lean ====
/-
  The reference's two dense stages, read at an index, are the formulas of the specification.

  After each aggregation the reference scales row `r` by the in-degree factor, takes the product with the weight matrix,
  adds the bias; the first layer then clamps below at the float zero and scales row `r` by the out-degree factor. Each
  stage below is the chain of the operations' readings at an index (a broadcast reads its operand at the index with the
  broadcast axes dropped, a product of matrices is the sum over the contracted axis), with the composed index maps
  identified with the coordinates `(r, k)`, `(k, q)`, `r`, `q`. The aggregated arrays and the degree factors stay
  closed terms throughout: every step is a rewriting by a stated equation, none opens them.
-/
import proofs.«136758_j49890340110359_2_alg».proof.Proof.RefRead
import proofs.«136758_j49890340110359_2_alg».proof.Proof.Spec

noncomputable section

namespace Cert.Gcn.RefLayers

open Cert.ReferenceIdeal Cert.ReferenceIdeal.ReadP Idealize.ShloMosaic Idealize.ShloMosaic.ValueIdx

/-- The first layer of the reference at `(r, q)`: the clamp of `Σ_k (agg[r,k] · cin[r]) · W1[k,q] + b1[q]`, times `cout[r]`. -/
theorem hidden_entry (x0 : (⟨S100000x64, .f32⟩ : BufTy).Contents (Elt Ideal)) (x1 x2 : (⟨S1600000, .i32⟩ : BufTy).Contents (Elt Ideal))
    (x5 : (⟨S64x64, .f32⟩ : BufTy).Contents (Elt Ideal)) (x6 : (⟨S64, .f32⟩ : BufTy).Contents (Elt Ideal)) (r : Fin 100000) (q : Fin 64) :
    val_main_v71 (F := Ideal) x0 x1 x2 x5 x6 (ix2 r q)
      = max ((∑ k : Fin 64, (val_main_v36 (F := Ideal) x0 x1 x2 (ix2 r k) * val_main_v23 (F := Ideal) x2 (ix1 r)) * x5 (ix2 k q))
              + x6 (ix1 q)) Cert.Gcn.zeroF * val_main_v56 (F := Ideal) x1 (ix1 r) := by
  -- the composed index maps of the operations, at the coordinates
  have e1 : ∀ k : Fin 64, lidx_main_v40 (ix2 r q) k = ix2 r k := fun k => funext fun a => by
    match a with | ⟨0, _⟩ => rfl | ⟨1, _⟩ => rfl
  have e2 : ∀ k : Fin 64, ridx_main_v40 (ix2 r q) k = ix2 k q := fun k => funext fun a => by
    match a with | ⟨0, _⟩ => rfl | ⟨1, _⟩ => rfl
  have e3 : ∀ k : Fin 64, idx_main_v37 (idx_main_v38 (ix2 r k)) = ix1 r := fun k => funext fun a => by
    match a with | ⟨0, _⟩ => rfl
  have e4 : idx_main_v41 (idx_main_v42 (ix2 r q)) = ix1 q := funext fun a => by
    match a with | ⟨0, _⟩ => rfl
  have e5 : idx_main_v69 (idx_main_v70 (ix2 r q)) = ix1 r := funext fun a => by
    match a with | ⟨0, _⟩ => rfl
  -- the operations outside the sum, outermost first
  rw [val_main_v71_apply, val_main_v44_apply, val_main_v43_apply, val_main_v40_apply, val_main_v42_apply, val_main_v41_apply,
    val_main_call2_v0_apply, val_main_call2_cst_apply, val_main_v70_apply, val_main_v69_apply, e4, e5]
  -- one term of the sum: the aggregated row entry times the row's in-degree factor, times the weight
  have term : ∀ k : Fin 64,
      val_main_v39 (F := Ideal) x0 x1 x2 (lidx_main_v40 (ix2 r q) k) * x5 (ridx_main_v40 (ix2 r q) k)
        = (val_main_v36 (F := Ideal) x0 x1 x2 (ix2 r k) * val_main_v23 (F := Ideal) x2 (ix1 r)) * x5 (ix2 k q) := fun k => by
    rw [e1 k, e2 k, val_main_v39_apply, val_main_v38_apply, val_main_v37_apply, e3 k, Ideal.mulf_def]
  rw [Finset.sum_congr rfl fun k _ => term k, Ideal.mulf_def, Ideal.maximumf_def, Ideal.addf_def, Ideal.ofBits_def]

/-- The second layer of the reference at `(r, j)`: `Σ_k (agg[r,k] · cin[r]) · W2[k,j] + b2[j]`. -/
theorem embed_entry (x0 : (⟨S100000x64, .f32⟩ : BufTy).Contents (Elt Ideal)) (x1 x2 : (⟨S1600000, .i32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) (r : Fin 100000) (j : Fin 64) :
    val_main_v88 (F := Ideal) x0 x1 x2 x5 x6 x7 x8 (ix2 r j)
      = (∑ k : Fin 64, (val_main_v81 (F := Ideal) x0 x1 x2 x5 x6 (ix2 r k) * val_main_v68 (F := Ideal) x2 (ix1 r)) * x7 (ix2 k j))
          + x8 (ix1 j) := by
  -- the composed index maps of the operations, at the coordinates
  have e1 : ∀ k : Fin 64, lidx_main_v85 (ix2 r j) k = ix2 r k := fun k => funext fun a => by
    match a with | ⟨0, _⟩ => rfl | ⟨1, _⟩ => rfl
  have e2 : ∀ k : Fin 64, ridx_main_v85 (ix2 r j) k = ix2 k j := fun k => funext fun a => by
    match a with | ⟨0, _⟩ => rfl | ⟨1, _⟩ => rfl
  have e3 : ∀ k : Fin 64, idx_main_v82 (idx_main_v83 (ix2 r k)) = ix1 r := fun k => funext fun a => by
    match a with | ⟨0, _⟩ => rfl
  have e4 : idx_main_v86 (idx_main_v87 (ix2 r j)) = ix1 j := funext fun a => by
    match a with | ⟨0, _⟩ => rfl
  -- the operations outside the sum, outermost first
  rw [val_main_v88_apply, val_main_v85_apply, val_main_v87_apply, val_main_v86_apply, e4]
  -- one term of the sum
  have term : ∀ k : Fin 64,
      val_main_v84 (F := Ideal) x0 x1 x2 x5 x6 (lidx_main_v85 (ix2 r j) k) * x7 (ridx_main_v85 (ix2 r j) k)
        = (val_main_v81 (F := Ideal) x0 x1 x2 x5 x6 (ix2 r k) * val_main_v68 (F := Ideal) x2 (ix1 r)) * x7 (ix2 k j) := fun k => by
    rw [e1 k, e2 k, val_main_v84_apply, val_main_v83_apply, val_main_v82_apply, e3 k, Ideal.mulf_def]
  rw [Finset.sum_congr rfl fun k _ => term k, Ideal.addf_def]

end Cert.Gcn.RefLayers

end
-- ==== Proof.RefBridge.lean ====
/-
  The specification's functions are the reference's stages.

  The reference computes, from the aggregated node array, the in- and out-degree factors, a weight matrix and a bias
  vector, the first layer `max ((A ⊙ cin) · W + b) 0 ⊙ cout` and the second layer `(A ⊙ cin) · W + b`; its edge predictor
  multiplies rows of the second layer by the upper and by the lower half of the projection matrix. Stated for abstract
  arrays that agree entry by entry with the reference's operands (the factors are columns [n, 1] on one side and vectors
  [n] on the other; the bias is a row [1, H] on one side and a vector [H] on the other), the specification's `hidden` is
  the reference's first layer, and the specification's `scores` for either half of the projection matrix are the
  reference's second layer times that half.
-/
import proofs.«136758_j49890340110359_2_alg».proof.Proof.RefLayers
import proofs.«136758_j49890340110359_2_alg».proof.Proof.Spec

noncomputable section

namespace Cert.Gcn.RefBridge

open Cert.ReferenceIdeal Cert.ReferenceIdeal.ReadP Idealize.ShloMosaic Idealize.ShloMosaic.ValueIdx

/-- The specification's first layer is the reference's: entry `(r, q)` of either is the clamp of
    `Σ_k (A[r,k] · cin[r]) · W[k,q] + b[q]`, times `cout[r]`. -/
theorem hidden_eq (A : Mat 100000 64) (cin cout : Mat 100000 1) (W : Mat 64 64) (brow : Mat 1 64)
    (x0 : (⟨S100000x64, .f32⟩ : BufTy).Contents (Elt Ideal)) (x1 x2 : (⟨S1600000, .i32⟩ : BufTy).Contents (Elt Ideal))
    (x5 : (⟨S64x64, .f32⟩ : BufTy).Contents (Elt Ideal)) (x6 : (⟨S64, .f32⟩ : BufTy).Contents (Elt Ideal))
    (hA : A = val_main_v36 (F := Ideal) x0 x1 x2)
    (hcin : ∀ (r : Fin 100000) (u : Fin 1), cin (ix2 r u) = val_main_v23 (F := Ideal) x2 (ix1 r))
    (hcout : ∀ (r : Fin 100000) (u : Fin 1), cout (ix2 r u) = val_main_v56 (F := Ideal) x1 (ix1 r))
    (hW : W = x5) (hb : ∀ (u : Fin 1) (q : Fin 64), brow (ix2 u q) = x6 (ix1 q)) :
    Cert.Gcn.hidden A cin cout W brow = val_main_v71 (F := Ideal) x0 x1 x2 x5 x6 := by
  funext i
  obtain ⟨r, q, rfl⟩ : ∃ (r : Fin 100000) (q : Fin 64), i = ix2 r q := ⟨i 0, i 1, eq_ix2 i⟩
  -- the reference's entry, with its operands named back to the abstract arrays
  rw [hidden_apply, RefLayers.hidden_entry, ← hA, ← hW, ← hcin r 0, ← hcout r 0, ← hb 0 q]
  -- both sides are now the one formula over the abstract arrays
  rfl

/-- The specification's scores for a projection matrix whose row `j` is row `ρ j` of the reference's [128, 8] matrix:
    the reference's second layer at row `r` times those rows. -/
theorem scores_rows (ρ : Fin 64 → Fin 128) (A2 : Mat 100000 64) (cin : Mat 100000 1) (W : Mat 64 64) (brow : Mat 1 64)
    (Pm : Mat 64 8)
    (x0 : (⟨S100000x64, .f32⟩ : BufTy).Contents (Elt Ideal)) (x1 x2 : (⟨S1600000, .i32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) (x9 : Mat 128 8)
    (hA : A2 = val_main_v81 (F := Ideal) x0 x1 x2 x5 x6)
    (hcin : ∀ (r : Fin 100000) (u : Fin 1), cin (ix2 r u) = val_main_v68 (F := Ideal) x2 (ix1 r))
    (hW : W = x7) (hb : ∀ (u : Fin 1) (q : Fin 64), brow (ix2 u q) = x8 (ix1 q))
    (hP : ∀ (j : Fin 64) (k : Fin 8), Pm (ix2 j k) = x9 (ix2 (ρ j) k)) (r : Fin 100000) (c : Fin 8) :
    Cert.Gcn.scores A2 cin W brow Pm (ix2 r c)
      = ∑ j : Fin 64, val_main_v88 (F := Ideal) x0 x1 x2 x5 x6 x7 x8 (ix2 r j) * x9 (ix2 (ρ j) c) := by
  rw [scores_apply]
  refine Finset.sum_congr rfl fun j _ => ?_
  -- the reference's entry, with its operands named back to the abstract arrays
  rw [RefLayers.embed_entry, ← hA, ← hW, ← hcin r 0, ← hb 0 j, ← hP j c]
  -- both sides are now the one formula over the abstract arrays
  rfl

/-- The scores for the upper half of the projection matrix (rows 0 … 63 of the [128, 8] matrix). -/
theorem scores_upper (A2 : Mat 100000 64) (cin : Mat 100000 1) (W : Mat 64 64) (brow : Mat 1 64) (Pm : Mat 64 8)
    (x0 : (⟨S100000x64, .f32⟩ : BufTy).Contents (Elt Ideal)) (x1 x2 : (⟨S1600000, .i32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) (x9 : Mat 128 8)
    (hA : A2 = val_main_v81 (F := Ideal) x0 x1 x2 x5 x6)
    (hcin : ∀ (r : Fin 100000) (u : Fin 1), cin (ix2 r u) = val_main_v68 (F := Ideal) x2 (ix1 r))
    (hW : W = x7) (hb : ∀ (u : Fin 1) (q : Fin 64), brow (ix2 u q) = x8 (ix1 q))
    (hP : ∀ (j : Fin 64) (k : Fin 8), Pm (ix2 j k) = x9 (ix2 (⟨j.val, by omega⟩ : Fin 128) k)) :
    ∀ (r : Fin 100000) (c : Fin 8), Cert.Gcn.scores A2 cin W brow Pm (ix2 r c)
      = ∑ j : Fin 64, val_main_v88 (F := Ideal) x0 x1 x2 x5 x6 x7 x8 (ix2 r j) * x9 (ix2 (⟨j.val, by omega⟩ : Fin 128) c) :=
  scores_rows (fun j => ⟨j.val, by omega⟩) A2 cin W brow Pm x0 x1 x2 x5 x6 x7 x8 x9 hA hcin hW hb hP

/-- The scores for the lower half of the projection matrix (rows 64 … 127 of the [128, 8] matrix). -/
theorem scores_lower (A2 : Mat 100000 64) (cin : Mat 100000 1) (W : Mat 64 64) (brow : Mat 1 64) (Pm : Mat 64 8)
    (x0 : (⟨S100000x64, .f32⟩ : BufTy).Contents (Elt Ideal)) (x1 x2 : (⟨S1600000, .i32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) (x9 : Mat 128 8)
    (hA : A2 = val_main_v81 (F := Ideal) x0 x1 x2 x5 x6)
    (hcin : ∀ (r : Fin 100000) (u : Fin 1), cin (ix2 r u) = val_main_v68 (F := Ideal) x2 (ix1 r))
    (hW : W = x7) (hb : ∀ (u : Fin 1) (q : Fin 64), brow (ix2 u q) = x8 (ix1 q))
    (hP : ∀ (j : Fin 64) (k : Fin 8), Pm (ix2 j k) = x9 (ix2 (⟨64 + j.val, by omega⟩ : Fin 128) k)) :
    ∀ (r : Fin 100000) (c : Fin 8), Cert.Gcn.scores A2 cin W brow Pm (ix2 r c)
      = ∑ j : Fin 64, val_main_v88 (F := Ideal) x0 x1 x2 x5 x6 x7 x8 (ix2 r j) * x9 (ix2 (⟨64 + j.val, by omega⟩ : Fin 128) c) :=
  scores_rows (fun j => ⟨64 + j.val, by omega⟩) A2 cin W brow Pm x0 x1 x2 x5 x6 x7 x8 x9 hA hcin hW hb hP

end Cert.Gcn.RefBridge

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.Predictor.lean ====
/-
  The edge predictor: gathering projected scores is projecting gathered embeddings.

  Each edge e names two nodes by two index columns.  One side gathers the rows of two score arrays LU = E · Wp[0:64] and
  LV = E · Wp[64:128] (8 classes per node) at the two nodes and adds them; the other side gathers the two nodes' rows of
  the embedding E (64 features per node), joins them side by side into one row of 128 features and multiplies that row by
  the whole projection matrix Wp.  Entry (e, c) of either is
      Σ_{j<64} E[u(e), j] · Wp[j, c] + Σ_{j<64} E[v(e), j] · Wp[64 + j, c],
  because a sum over 128 terms is the sum of its first 64 and its last 64 terms.  Both sides then add the same bias array.
  The extended reals are an additive commutative monoid, so no entry needs to be finite.
-/
import proofs.«136758_j49890340110359_2_alg».proof.Proof.Gen.KernelIdeal
import proofs.«136758_j49890340110359_2_alg».proof.Proof.Gen.ReferenceIdeal
import proofs.«136758_j49890340110359_2_alg».proof.Proof.Spec
import proofs.«136758_j49890340110359_2_alg».proof.Proof.LibSegments
import Idealize.ShloMosaic.PureOps.Ideal.Laws
import Idealize.ShloMosaic.Lib.ValueIdx
import Idealize.ShloMosaic.Lib.Pipeline.Value

noncomputable section

namespace Cert.Gcn.Predictor

open scoped BigOperators
open Idealize.ShloMosaic Idealize.ShloMosaic.ValueIdx

/-- The node an edge reads through an index column: the column's word at the edge, read signed and clamped into
    [0, 99999]. -/
def node (idx : IVec ⟨2, ![500000, 1]⟩ 32) (e : Fin 500000) : Fin 100000 :=
  ⟨min (idx (ix2 e (0 : Fin 1))).toInt.toNat (100000 - 1), by omega⟩

/-- A gathered score row is the score array's row at the edge's node. -/
theorem gather_scores_apply (X : Mat 100000 8) (idx : IVec ⟨2, ![500000, 1]⟩ 32) (e : Fin 500000) (c : Fin 8) :
    Host.gather Cert.KernelIdeal.gather_S100000x8_S500000x1_S500000x8_1_0_n_n_0_1_18 X idx (ix2 e c)
      = X (ix2 (node idx e) c) :=
  Segments.gather_rows_apply_of_dims (by decide) _ rfl rfl rfl rfl rfl rfl rfl X idx e c

/-- A gathered embedding row is the embedding's row at the edge's node: the same node as for the scores. -/
theorem gather_embed_apply (X : Mat 100000 64) (idx : IVec ⟨2, ![500000, 1]⟩ 32) (e : Fin 500000) (k : Fin 64) :
    Host.gather Cert.ReferenceIdeal.gather_S100000x64_S500000x1_S500000x64_1_0_n_n_0_1_164 X idx (ix2 e k)
      = X (ix2 (node idx e) k) :=
  Segments.gather_rows_apply_of_dims (by decide) _ rfl rfl rfl rfl rfl rfl rfl X idx e k

/-- The joined row at a feature below 64 is the first piece's row at that feature. -/
theorem join_apply_left (a b : Mat 500000 64) (e : Fin 500000) (j : Fin 64) :
    concatenate Cert.ReferenceIdeal.S500000x128 1
        [⟨Cert.ReferenceIdeal.S500000x64, a⟩, ⟨Cert.ReferenceIdeal.S500000x64, b⟩]
        Cert.ReferenceIdeal.Facts₀.concatenates_S500000x64_S500000x64_S500000x128_d1
        (ix2 e (⟨j.val, by omega⟩ : Fin 128)) = a (ix2 e j) :=
  concatenate_pair_apply_left (t := Cert.ReferenceIdeal.S500000x128) (s₁ := Cert.ReferenceIdeal.S500000x64)
    (s₂ := Cert.ReferenceIdeal.S500000x64) (1 : Fin 2) a b _ _ rfl (ix2 e j) (fun ax => by
    match ax with
    | ⟨0, _⟩ => rfl
    | ⟨1, _⟩ => rfl)

/-- The joined row at feature 64 + j is the second piece's row at feature j. -/
theorem join_apply_right (a b : Mat 500000 64) (e : Fin 500000) (j : Fin 64) :
    concatenate Cert.ReferenceIdeal.S500000x128 1
        [⟨Cert.ReferenceIdeal.S500000x64, a⟩, ⟨Cert.ReferenceIdeal.S500000x64, b⟩]
        Cert.ReferenceIdeal.Facts₀.concatenates_S500000x64_S500000x64_S500000x128_d1
        (ix2 e (⟨64 + j.val, by omega⟩ : Fin 128)) = b (ix2 e j) :=
  concatenate_pair_apply_right (t := Cert.ReferenceIdeal.S500000x128) (s₁ := Cert.ReferenceIdeal.S500000x64)
    (s₂ := Cert.ReferenceIdeal.S500000x64) (1 : Fin 2) a b _ _ rfl rfl (ix2 e j) (fun ax hax => by
    match ax with
    | ⟨0, _⟩ => rfl
    | ⟨1, _⟩ => exact absurd rfl hax)
    (by show j.val + 64 = 64 + j.val; omega)

/-- The left operand's index, axis 0: the free row axis reads the result's row. -/
theorem lhsIdx_row (i : Cert.ReferenceIdeal.S500000x8.Idx)
    (q : Cert.ReferenceIdeal.dot_S500000x128_S128x8_S500000x8_1_0_0_1_n_n.contr.Idx) :
    (Cert.ReferenceIdeal.dot_S500000x128_S128x8_S500000x8_1_0_0_1_n_n.lhsIdx i q 0).val = (i 0).val := by
  unfold DotDims.lhsIdx
  rw [dif_neg (show ¬(0 : Fin Cert.ReferenceIdeal.S500000x128.rank) ∈
        Cert.ReferenceIdeal.dot_S500000x128_S128x8_S500000x8_1_0_0_1_n_n.lhsBatch by decide),
    dif_pos (show (0 : Fin Cert.ReferenceIdeal.S500000x128.rank) ∈
        Cert.ReferenceIdeal.dot_S500000x128_S128x8_S500000x8_1_0_0_1_n_n.lhsNonContracting by decide)]
  rfl

/-- The right operand's index, axis 1: the free class axis reads the result's class. -/
theorem rhsIdx_class (i : Cert.ReferenceIdeal.S500000x8.Idx)
    (q : Cert.ReferenceIdeal.dot_S500000x128_S128x8_S500000x8_1_0_0_1_n_n.contr.Idx) :
    (Cert.ReferenceIdeal.dot_S500000x128_S128x8_S500000x8_1_0_0_1_n_n.rhsIdx i q 1).val = (i 1).val := by
  unfold DotDims.rhsIdx
  rw [dif_neg (show ¬(1 : Fin Cert.ReferenceIdeal.S128x8.rank) ∈
        Cert.ReferenceIdeal.dot_S500000x128_S128x8_S500000x8_1_0_0_1_n_n.rhsBatch by decide),
    dif_pos (show (1 : Fin Cert.ReferenceIdeal.S128x8.rank) ∈
        Cert.ReferenceIdeal.dot_S500000x128_S128x8_S500000x8_1_0_0_1_n_n.rhsNonContracting by decide)]
  rfl

/-- The product of a [500000, 128] array by a [128, 8] matrix, entry by entry: the sum over the 128 contracted features. -/
theorem project_apply (X : Mat 500000 128) (Wp : Mat 128 8) (e : Fin 500000) (c : Fin 8) :
    Host.dotGeneral (F := Ideal) (φ₁ := .f32) (φ₂ := .f32)
        Cert.ReferenceIdeal.dot_S500000x128_S128x8_S500000x8_1_0_0_1_n_n none X Wp (ix2 e c)
      = ∑ k : Fin 128, X (ix2 e k) * Wp (ix2 k c) := by
  simp only [Host.dotGeneral]
  rw [Ideal.dotGeneral_apply,
    ← Equiv.sum_comp (contrEquiv1 Cert.ReferenceIdeal.dot_S500000x128_S128x8_S500000x8_1_0_0_1_n_n 128 rfl rfl).symm]
  refine Finset.sum_congr rfl fun k _ => ?_
  have hk := contrEquiv1_symm_val Cert.ReferenceIdeal.dot_S500000x128_S128x8_S500000x8_1_0_0_1_n_n 128 rfl rfl k
  -- the left operand is read at (e, k): axis 0 is the free row axis, axis 1 the contracted one
  have el : Cert.ReferenceIdeal.dot_S500000x128_S128x8_S500000x8_1_0_0_1_n_n.lhsIdx (ix2 e c)
      ((contrEquiv1 Cert.ReferenceIdeal.dot_S500000x128_S128x8_S500000x8_1_0_0_1_n_n 128 rfl rfl).symm k) = ix2 e k :=
    funext fun ax => Fin.ext (by
      match ax with
      | ⟨0, _⟩ => exact lhsIdx_row _ _
      | ⟨1, _⟩ =>
        exact (Cert.ReferenceIdeal.dot_S500000x128_S128x8_S500000x8_1_0_0_1_n_n.lhsIdx_val_of_single rfl _ _).trans hk)
  -- the right operand is read at (k, c): axis 0 is the contracted one, axis 1 the free class axis
  have er : Cert.ReferenceIdeal.dot_S500000x128_S128x8_S500000x8_1_0_0_1_n_n.rhsIdx (ix2 e c)
      ((contrEquiv1 Cert.ReferenceIdeal.dot_S500000x128_S128x8_S500000x8_1_0_0_1_n_n 128 rfl rfl).symm k) = ix2 k c :=
    funext fun ax => Fin.ext (by
      match ax with
      | ⟨0, _⟩ =>
        exact (Cert.ReferenceIdeal.dot_S500000x128_S128x8_S500000x8_1_0_0_1_n_n.rhsIdx_val_of_single rfl _ _).trans hk
      | ⟨1, _⟩ => exact rhsIdx_class _ _)
  rw [el, er]

/-- A sum of 128 terms is the sum of its first 64 and of its last 64 terms. -/
theorem sum_halves {M : Type*} [AddCommMonoid M] (f : Fin 128 → M) :
    ∑ k : Fin 128, f k = ∑ j : Fin 64, f ⟨j.val, by omega⟩ + ∑ j : Fin 64, f ⟨64 + j.val, by omega⟩ :=
  Fin.sum_univ_add (a := 64) (b := 64) f

/-- THE EDGE PREDICTOR. Gathering the two halves' scores at an edge's two nodes and adding them is gathering the two
    nodes' embeddings, joining them and projecting by the whole matrix; the bias array is added on both sides. -/
theorem predictor_eq (E : Mat 100000 64) (Wp : Mat 128 8)
    (ip iq : (⟨Cert.ReferenceIdeal.S500000x1, .i32⟩ : BufTy).Contents (Elt Ideal)) (B : Mat 500000 8)
    (LU LV : Mat 100000 8)
    (hLU : ∀ (r : Fin 100000) (c : Fin 8),
      LU (ix2 r c) = ∑ j : Fin 64, E (ix2 r j) * Wp (ix2 (⟨j.val, by omega⟩ : Fin 128) c))
    (hLV : ∀ (r : Fin 100000) (c : Fin 8),
      LV (ix2 r c) = ∑ j : Fin 64, E (ix2 r j) * Wp (ix2 (⟨64 + j.val, by omega⟩ : Fin 128) c)) :
    addf (F := Ideal) (φ := .f32)
        (addf (F := Ideal) (φ := .f32)
          (Host.gather Cert.KernelIdeal.gather_S100000x8_S500000x1_S500000x8_1_0_n_n_0_1_18 LU ip)
          (Host.gather Cert.KernelIdeal.gather_S100000x8_S500000x1_S500000x8_1_0_n_n_0_1_18 LV iq)) B
      = addf (F := Ideal) (φ := .f32)
          (Host.dotGeneral (F := Ideal) (φ₁ := .f32) (φ₂ := .f32)
            Cert.ReferenceIdeal.dot_S500000x128_S128x8_S500000x8_1_0_0_1_n_n none
            (concatenate Cert.ReferenceIdeal.S500000x128 1
              [⟨Cert.ReferenceIdeal.S500000x64,
                  Host.gather Cert.ReferenceIdeal.gather_S100000x64_S500000x1_S500000x64_1_0_n_n_0_1_164 E ip⟩,
               ⟨Cert.ReferenceIdeal.S500000x64,
                  Host.gather Cert.ReferenceIdeal.gather_S100000x64_S500000x1_S500000x64_1_0_n_n_0_1_164 E iq⟩]
              Cert.ReferenceIdeal.Facts₀.concatenates_S500000x64_S500000x64_S500000x128_d1) Wp) B := by
  funext i
  obtain ⟨e, c, rfl⟩ : ∃ (e : Fin 500000) (c : Fin 8), i = ix2 e c := ⟨i 0, i 1, eq_ix2 i⟩
  rw [addf_apply, addf_apply, addf_apply, gather_scores_apply, gather_scores_apply, project_apply, sum_halves,
    hLU, hLV]
  congr 1
  congr 1
  · refine Finset.sum_congr rfl fun j _ => ?_
    rw [join_apply_left, gather_embed_apply]
  · refine Finset.sum_congr rfl fun j _ => ?_
    rw [join_apply_right, gather_embed_apply]

end Cert.Gcn.Predictor

end
-- ==== Proof.Bridge.lean ====
/-
  The kernel's result is the reference's.

  Read from the end. The result buffer holds rows of the two score arrays gathered along the two prediction lists, added,
  plus the prediction bias spread over the rows. The score arrays are what the second grid left: the embedding — the
  in-degree-scaled aggregate times the second weight matrix plus the second bias — projected by the upper and the lower
  half of the projection matrix. The aggregate there is taken of what the first grid left, which is the reference's first
  layer (clamped at zero, scaled by the out-degree factor) of the reference's own first aggregate. So the embedding is the
  reference's second layer; and gathering rows of a product by half the projection matrix, twice, and adding is the
  product of the two gathered rows laid side by side with the whole matrix: a sum over 128 terms cut in two.
-/
import proofs.«136758_j49890340110359_2_alg».proof.Proof.GlueWalk
import proofs.«136758_j49890340110359_2_alg».proof.Proof.GlueFactors
import proofs.«136758_j49890340110359_2_alg».proof.Proof.GlueStage0
import proofs.«136758_j49890340110359_2_alg».proof.Proof.GlueStage1
import proofs.«136758_j49890340110359_2_alg».proof.Proof.Layer1Blocks
import proofs.«136758_j49890340110359_2_alg».proof.Proof.Layer2Blocks
import proofs.«136758_j49890340110359_2_alg».proof.Proof.RefBridge
import proofs.«136758_j49890340110359_2_alg».proof.Proof.Predictor

set_option maxRecDepth 16384

noncomputable section

namespace Cert.Gcn.Bridge

open Cert.KernelIdeal Cert.KernelIdeal.Gen Cert.Gcn.Glue
open Idealize.ShloMosaic Idealize.ShloMosaic.TcCoe Idealize.SL.Sem Idealize.ShloMosaic.ValueIdx
open Cert.ReferenceIdeal.ReadP (val_main_v11 val_main_v23 val_main_v36 val_main_v56 val_main_v68 val_main_v71 val_main_v78 val_main_v81 val_main_v88
  val_main_v94 val_main_v95 val_main_v101 val_main_v102 val_main_v103 val_main_v104 val_main_v106 val_main_v107)

variable (m : (ℓ : Loc nD τ sig) → Buf (Elt Ideal) ℓ) (ρ : Dev nD → PrngReg) (c : Dev nD)

/-! ## The first grid's output -/

/-- What the first grid left is the reference's first layer, scaled for the second aggregation. -/
theorem first_layer : (W6 m ρ c (Proc.devRef .tc main_v40) : S100000x64.Idx → EReal)
    = val_main_v71 (F := Ideal) (a0 m c) (a1 m c) (a2 m c) (a5 m c) (a6 m c) := by
  refine (W6_arr m ρ c 5).trans ((Cert.Gcn.Layer1.final (V5 m ρ) c).trans ?_)
  exact Cert.Gcn.RefBridge.hidden_eq _ _ _ _ _ (a0 m c) (a1 m c) (a2 m c) (a5 m c) (a6 m c)
    (stage0_agg (W4 m ρ c) (a0 m c) (a1 m c) (a2 m c) (W4_arg0 m ρ c) (W4_arg1 m ρ c) (W4_arg2 m ρ c) (W4_cout m ρ c))
    (stage0_indeg (W4 m ρ c) (a2 m c) (W4_cin m ρ c))
    (fun r u => (stage0_outdeg (W4 m ρ c) (a1 m c) (W4_cout m ρ c) r u).trans (congrFun (cout_again (a1 m c)).symm (ix1 r)))
    (stage0_weights (W4 m ρ c) (a5 m c) (W4_arg5 m ρ c))
    (stage0_bias (W4 m ρ c) (a6 m c) (W4_arg6 m ρ c))

/-! ## The second grid's arrays -/

/-- The in-degree factor is still in its buffer when the second stretch reads it. -/
theorem W6_cin : W6 m ρ c (Proc.devRef .tc main_v23) = val_main_v23 (F := Ideal) (a2 m c) :=
  (W6_cin_of_W4 m ρ c).trans (W4_cin m ρ c)

/-- The aggregate the second grid reads is the reference's second aggregate. -/
theorem second_aggregate : (V7 m ρ c main_v50 : S100000x64.Idx → EReal)
    = val_main_v81 (F := Ideal) (a0 m c) (a1 m c) (a2 m c) (a5 m c) (a6 m c) := by
  refine (stage1_aggregate (W6 m ρ c) (a1 m c) (a2 m c) (W6_arg1 m ρ c) (W6_arg2 m ρ c)).trans ?_
  rw [first_layer m ρ c]
  simp only [aggregate, val_main_v81, val_main_v78]

/-- The first score array: node `r`'s embedding against the upper half of the projection matrix. -/
theorem scores_u (r : Fin 100000) (k : Fin 8) :
    (W8 m ρ c (Proc.devRef .tc main_v55_0) : S100000x8.Idx → EReal) (ix2 r k)
      = ∑ j : Fin 64, val_main_v88 (F := Ideal) (a0 m c) (a1 m c) (a2 m c) (a5 m c) (a6 m c) (a7 m c) (a8 m c) (ix2 r j)
          * a9 m c (ix2 (⟨j.val, by omega⟩ : Fin 128) k) := by
  have hW : (W8 m ρ c (Proc.devRef .tc main_v55_0) : S100000x8.Idx → EReal)
      = Cert.Gcn.scores (V7 m ρ c main_v50) (V7 m ρ c main_v54) (V7 m ρ c main_arg7) (V7 m ρ c main_v53) (V7 m ρ c main_v51) :=
    (W8_arr m ρ c 6).trans (Cert.Gcn.Layer2.final_u (V7 m ρ) c)
  rw [hW]
  exact Cert.Gcn.RefBridge.scores_upper _ _ _ _ _ (a0 m c) (a1 m c) (a2 m c) (a5 m c) (a6 m c) (a7 m c) (a8 m c) (a9 m c)
    (second_aggregate m ρ c)
    (fun r u => (stage1_cin (W6 m ρ c) (a2 m c) (W6_cin m ρ c) r u).trans (congrFun (cin_again (a2 m c)).symm (ix1 r)))
    (stage1_weight (W6 m ρ c) (a7 m c) (W6_arg7 m ρ c)) (stage1_bias (W6 m ρ c) (a8 m c) (W6_arg8 m ρ c))
    (stage1_proj_upper (W6 m ρ c) (a9 m c) (W6_arg9 m ρ c)) r k

/-- The second score array: the same embedding against the lower half. -/
theorem scores_v (r : Fin 100000) (k : Fin 8) :
    (W8 m ρ c (Proc.devRef .tc main_v55_1) : S100000x8.Idx → EReal) (ix2 r k)
      = ∑ j : Fin 64, val_main_v88 (F := Ideal) (a0 m c) (a1 m c) (a2 m c) (a5 m c) (a6 m c) (a7 m c) (a8 m c) (ix2 r j)
          * a9 m c (ix2 (⟨64 + j.val, by omega⟩ : Fin 128) k) := by
  have hW : (W8 m ρ c (Proc.devRef .tc main_v55_1) : S100000x8.Idx → EReal)
      = Cert.Gcn.scores (V7 m ρ c main_v50) (V7 m ρ c main_v54) (V7 m ρ c main_arg7) (V7 m ρ c main_v53) (V7 m ρ c main_v52) :=
    (W8_arr m ρ c 7).trans (Cert.Gcn.Layer2.final_v (V7 m ρ) c)
  rw [hW]
  exact Cert.Gcn.RefBridge.scores_lower _ _ _ _ _ (a0 m c) (a1 m c) (a2 m c) (a5 m c) (a6 m c) (a7 m c) (a8 m c) (a9 m c)
    (second_aggregate m ρ c)
    (fun r u => (stage1_cin (W6 m ρ c) (a2 m c) (W6_cin m ρ c) r u).trans (congrFun (cin_again (a2 m c)).symm (ix1 r)))
    (stage1_weight (W6 m ρ c) (a7 m c) (W6_arg7 m ρ c)) (stage1_bias (W6 m ρ c) (a8 m c) (W6_arg8 m ρ c))
    (stage1_proj_lower (W6 m ρ c) (a9 m c) (W6_arg9 m ρ c)) r k

/-! ## The result -/

/-- The kernel's result buffer holds the reference's last stage of the same arguments. -/
theorem result : (W9 m ρ c (Proc.devRef .tc main_v73) : S500000x8.Idx → EReal)
    = val_main_v107 (F := Ideal) (a0 m c) (a1 m c) (a2 m c) (a3 m c) (a4 m c) (a5 m c) (a6 m c) (a7 m c) (a8 m c) (a9 m c) (a10 m c) := by
  refine (stage2_out (W8 m ρ c) (a3 m c) (a4 m c) (a10 m c) (W8_arg3 m ρ c) (W8_arg4 m ρ c) (W8_arg10 m ρ c)).trans ?_
  refine (Cert.Gcn.Predictor.predictor_eq
    (val_main_v88 (F := Ideal) (a0 m c) (a1 m c) (a2 m c) (a5 m c) (a6 m c) (a7 m c) (a8 m c)) (a9 m c)
    (val_main_v94 (F := Ideal) (a3 m c)) (val_main_v101 (F := Ideal) (a4 m c)) (val_main_v106 (F := Ideal) (a10 m c))
    _ _ (scores_u m ρ c) (scores_v m ρ c)).trans ?_
  simp only [val_main_v107, val_main_v104, val_main_v103, val_main_v95, val_main_v102]

end Cert.Gcn.Bridge

end
-- ==== Proof.lean ====
/-
  A two-layer graph convolution with an edge predictor: the kernel against its reference, on the extended reals.

  Both programs compute, for every node, one over the square root of its out-degree and of its in-degree (zero for an
  isolated node), scale the node features by the out-degree factor, gather the scaled rows along the source list and add
  them up by destination. A dense layer follows: the aggregate scaled by the in-degree factor, times a weight matrix, plus
  a bias, clamped below at zero, scaled by the out-degree factor. A second aggregation and a second dense layer (no clamp)
  give the node embedding, and the score of a prediction pair (p, q) is the row of node p followed by the row of node q,
  times a [128, 8] projection matrix, plus a bias.

  The kernel runs the two dense layers as grids of row blocks (an entry of either layer reads one row of the aggregate
  only, so the blocks compute restrictions of one whole-array function), and projects the embedding inside the second
  grid: by the upper half of the projection matrix for the first node of a pair and by the lower half for the second, so
  that only 8-wide rows are gathered afterwards and added. That last step is the one place where the two programs differ
  as formulas: a sum over the 128 joined coordinates against the sum of its first 64 and its last 64 terms, equal in any
  additive commutative monoid — the extended reals are one — so no finiteness of the inputs is used anywhere.

  The frames: the kernel's two are the generated frame certificates; the reference's is its run with the result dropped.
  The idealization rewrote nothing, so there is nothing to preserve.
-/
import proofs.«136758_j49890340110359_2_alg».proof.Defs
import proofs.«136758_j49890340110359_2_alg».proof.Proof.Gen.Kernel
import proofs.«136758_j49890340110359_2_alg».proof.Proof.Gen.Kernel.Skeleton
import proofs.«136758_j49890340110359_2_alg».proof.Proof.Gen.Kernel.Launch
import proofs.«136758_j49890340110359_2_alg».proof.Proof.Gen.Kernel.Points
import proofs.«136758_j49890340110359_2_alg».proof.Proof.Gen.Kernel.Frame
import proofs.«136758_j49890340110359_2_alg».proof.Proof.Gen.KernelIdeal
import proofs.«136758_j49890340110359_2_alg».proof.Proof.Gen.KernelIdeal.Skeleton
import proofs.«136758_j49890340110359_2_alg».proof.Proof.Gen.KernelIdeal.Launch
import proofs.«136758_j49890340110359_2_alg».proof.Proof.Gen.KernelIdeal.Points
import proofs.«136758_j49890340110359_2_alg».proof.Proof.Gen.KernelIdeal.Frame
import proofs.«136758_j49890340110359_2_alg».proof.Proof.Gen.ReferenceIdeal
import proofs.«136758_j49890340110359_2_alg».proof.Proof.Gen.Pre_finite_inputs
import proofs.«136758_j49890340110359_2_alg».proof.Proof.RefRun
import proofs.«136758_j49890340110359_2_alg».proof.Proof.RefRead
import proofs.«136758_j49890340110359_2_alg».proof.Proof.KernelRun
import proofs.«136758_j49890340110359_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no grid: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Run from memories that agree on the arguments, the two programs end with one result array: the kernel's result buffer
    at the last boundary's contents, which is the reference's last stage of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v73),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v107_eq, h0, h1, h2, h3, h4, h5, h6, h7, h8, h9, h10]
  exact (Cert.Gcn.Bridge.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
